-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S8192 : Shape := ⟨1, ![8192]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : IVec S8192 32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x3 : Shape := ⟨2, ![8192, 3]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S8192x8192 : Shape := ⟨2, ![8192, 8192]⟩
abbrev S2x8192x8192 : Shape := ⟨3, ![2, 8192, 8192]⟩
abbrev S1024x3 : Shape := ⟨2, ![1024, 3]⟩
abbrev S512x3 : Shape := ⟨2, ![512, 3]⟩
abbrev S1024x1 : Shape := ⟨2, ![1024, 1]⟩
abbrev S1x512 : Shape := ⟨2, ![1, 512]⟩
abbrev S1024x512 : Shape := ⟨2, ![1024, 512]⟩
abbrev S2x1024x512 : Shape := ⟨3, ![2, 1024, 512]⟩
abbrev S1x1024x512 : Shape := ⟨3, ![1, 1024, 512]⟩
abbrev S2x67108864 : Shape := ⟨2, ![2, 67108864]⟩
abbrev S67108864 : Shape := ⟨1, ![67108864]⟩

abbrev nBuf : Space → Nat
  | .hbm => 19
  | .vmem => 18
  | .smem => 0
  | _ => 0

abbrev bufTy : (tb : Table) → Fin (tcTables nBuf tb) → BufTy
  | .hbm, ⟨0, _⟩ => ⟨S8192x3, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x3, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .i32⟩
  | .hbm, ⟨11, _⟩ => ⟨S2x8192x8192, .i32⟩
  | .hbm, ⟨12, _⟩ => ⟨S_, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S2x67108864, .i32⟩
  | .hbm, ⟨17, _⟩ => ⟨S67108864, .f32⟩
  | .hbm, ⟨18, _⟩ => ⟨S67108864, .i1⟩
  | .local _ .vmem, ⟨0, _⟩ => ⟨S1024x3, .f32⟩
  | .local _ .vmem, ⟨1, _⟩ => ⟨S1024x3, .f32⟩
  | .local _ .vmem, ⟨2, _⟩ => ⟨S512x3, .f32⟩
  | .local _ .vmem, ⟨3, _⟩ => ⟨S512x3, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .i32⟩
  | .local _ .vmem, ⟨15, _⟩ => ⟨S1024x512, .i32⟩
  | .local _ .vmem, ⟨16, _⟩ => ⟨S2x1024x512, .i32⟩
  | .local _ .vmem, ⟨17, _⟩ => ⟨S2x1024x512, .i32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1024x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S8192_S8192x1 : S8192.ShapeCasts S8192x1
  shapeCasts_S8192_S1x8192 : S8192.ShapeCasts S1x8192
  reducesTo_S8192x3_S8192_d1 : S8192x3.ReducesTo [1] S8192
  h_S_ : 0 < S_.numel
  inb_S1024x3_S1024x3_0_0 : ∀ a, (![0, 0] : Fin 2 → Nat) a + S1024x3.size a ≤ S1024x3.size a
  h_S1024x3 : 0 < S1024x3.numel
  inb_S512x3_S512x3_0_0 : ∀ a, (![0, 0] : Fin 2 → Nat) a + S512x3.size a ≤ S512x3.size a
  h_S512x3 : 0 < S512x3.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  inb_S1024x512_S1024x512_0_0 : ∀ a, (![0, 0] : Fin 2 → Nat) a + S1024x512.size a ≤ S1024x512.size a
  h_S1024x512 : 0 < S1024x512.numel
  natLt_1_32 : 1 < 32
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S2x1024x512_S1x1024x512_1_0_0 : ∀ a, (![1, 0, 0] : Fin 3 → Nat) a + S1x1024x512.size a ≤ S2x1024x512.size a
  bcast_S_S8192x8192 : S_.BroadcastsInDim S8192x8192 (![] : Fin 0 → Fin S8192x8192.rank)
  shapeCasts_S2x8192x8192_S2x67108864 : S2x8192x8192.ShapeCasts S2x67108864
  shapeCasts_S8192x8192_S67108864 : S8192x8192.ShapeCasts S67108864
  dot_S1024x3_S512x3_S1024x512_1_1_0_0_n_n_wf : DotDims.WF S1024x3 S512x3 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S8192x3.size a
  hwx0_1 : ∀ i : grid0.Coords, EltTy.bits .f32 = 32 ∨ (Rect.block (s := S8192x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x8192.size a
  hwx0_6 : ∀ i : grid0.Coords, EltTy.bits .f32 = 32 ∨ (Rect.block (s := S8192x8192) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x8192.size a
  hwx0_7 : ∀ i : grid0.Coords, EltTy.bits .i32 = 32 ∨ (Rect.block (s := S8192x8192) S1024x512.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1024x512.size a ≤ S2x8192x8192.size a
  hwx0_8 : ∀ i : grid0.Coords, EltTy.bits .i32 = 32 ∨ (Rect.block (s := S2x8192x8192) S2x1024x512.size (cc0_transform_8 i) (hinb0_8 i)).WholeWords (EltTy.packing .i32)

variable [Facts₀]

def dot_S1024x3_S512x3_S1024x512_1_1_0_0_n_n : DotDims S1024x3 S512x3 S1024x512 where
  lhsContracting := [1]
  rhsContracting := [1]
  lhsNonContracting := [0]
  rhsNonContracting := [0]
  lhsBatch := []
  rhsBatch := []
  wf := dot_S1024x3_S512x3_S1024x512_1_1_0_0_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S2x1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x3 : Shape := ⟨2, ![8192, 3]⟩
abbrev S8192 : Shape := ⟨1, ![8192]⟩
abbrev S_ : Shape := ⟨0, ![]⟩
abbrev S3x8192 : Shape := ⟨2, ![3, 8192]⟩
abbrev S8192x8192 : Shape := ⟨2, ![8192, 8192]⟩
abbrev S8192x1 : Shape := ⟨2, ![8192, 1]⟩
abbrev S1x8192 : Shape := ⟨2, ![1, 8192]⟩
abbrev S67108864 : Shape := ⟨1, ![67108864]⟩
abbrev S1x67108864 : Shape := ⟨2, ![1, 67108864]⟩
abbrev S2x67108864 : Shape := ⟨2, ![2, 67108864]⟩

abbrev nBuf : Space → Nat
  | .hbm => 55
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192, .i32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S3x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192, .i32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x1, .i32⟩
  | .hbm, ⟨23, _⟩ => ⟨S1x8192, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .i1⟩
  | .hbm, ⟨39, _⟩ => ⟨S8192x8192, .i1⟩
  | .hbm, ⟨40, _⟩ => ⟨S8192x1, .i32⟩
  | .hbm, ⟨41, _⟩ => ⟨S8192x8192, .i32⟩
  | .hbm, ⟨42, _⟩ => ⟨S67108864, .i32⟩
  | .hbm, ⟨43, _⟩ => ⟨S1x8192, .i32⟩
  | .hbm, ⟨44, _⟩ => ⟨S8192x8192, .i32⟩
  | .hbm, ⟨45, _⟩ => ⟨S67108864, .i32⟩
  | .hbm, ⟨46, _⟩ => ⟨S1x67108864, .i32⟩
  | .hbm, ⟨47, _⟩ => ⟨S1x67108864, .i32⟩
  | .hbm, ⟨48, _⟩ => ⟨S2x67108864, .i32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S67108864, .f32⟩
  | .hbm, ⟨54, _⟩ => ⟨S67108864, .i1⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  transposes_S8192x3_S3x8192_1_0 : S8192x3.Transposes [1, 0] S3x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  shapeCasts_S8192x8192_S67108864 : S8192x8192.ShapeCasts S67108864
  bcast_S67108864_S1x67108864_1 : S67108864.BroadcastsInDim S1x67108864 (![1] : Fin 1 → Fin S1x67108864.rank)
  concatenates_S1x67108864_S1x67108864_S2x67108864_d0 : Shape.Concatenates [S1x67108864, S1x67108864] S2x67108864 0
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.PointBodyBits.lean ====
/-
  One grid point of the pairwise-distance kernel. The body reads six input tiles — the row block and the
  column block of the coordinates, the two blocks of subsystem ids, the two blocks of squared norms — and
  overwrites three output tiles: the masked distances, the cutoff mask widened to a word, and the two planes
  of row and column indices. What each output tile holds afterwards is the payload of its store(s) laid over
  the tile; the input tiles are left as found.
-/
import proofs.«169215_j6657199309587_2_alg».proof.Proof.Gen.Kernel.Launch
import proofs.«169215_j6657199309587_2_alg».proof.Proof.Gen.Kernel.Skeleton
import proofs.«169215_j6657199309587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes through: each is a whole tile, or one plane of the index tile -/

abbrev rRows : Rect S1024x3 := Rect.unit (s := S1024x3) ![0, 0] S1024x3.size Facts₀.inb_S1024x3_S1024x3_0_0
abbrev rCols : Rect S512x3 := Rect.unit (s := S512x3) ![0, 0] S512x3.size Facts₀.inb_S512x3_S512x3_0_0
abbrev rColumn : Rect S1024x1 := Rect.unit (s := S1024x1) ![0, 0] S1024x1.size Facts₀.inb_S1024x1_S1024x1_0_0
abbrev rRow : Rect S1x512 := Rect.unit (s := S1x512) ![0, 0] S1x512.size Facts₀.inb_S1x512_S1x512_0_0
abbrev rTile : Rect S1024x512 := Rect.unit (s := S1024x512) ![0, 0] S1024x512.size Facts₀.inb_S1024x512_S1024x512_0_0
abbrev rPlane0 : Rect S2x1024x512 := Rect.unit (s := S2x1024x512) ![0, 0, 0] S1x1024x512.size Facts₀.inb_S2x1024x512_S1x1024x512_0_0_0
abbrev rPlane1 : Rect S2x1024x512 := Rect.unit (s := S2x1024x512) ![1, 0, 0] S1x1024x512.size Facts₀.inb_S2x1024x512_S1x1024x512_1_0_0

/-! ## What the body leaves in each output tile, from the six input tiles at grid coordinates `i` -/

/-- The square roots of the guarded squared distances of the tile. -/
def rootTile (i : grid0.Coords) (x0 : Vec F S1024x3 .f32) (x1 : Vec F S512x3 .f32) (x2 : Vec F S1024x1 .i32) (x3 : Vec F S1x512 .i32)
    (x4 : Vec F S1024x1 .f32) (x5 : Vec F S1x512 .f32) : FVec F S1024x512 .f32 :=
  k0_pay8 i (View.ld x0 rRows) (View.ld x1 rCols) (View.ld x4 rColumn) (View.ld x5 rRow) (View.ld x2 rColumn) (View.ld x3 rRow)

/-- The pairs of the tile that are in one subsystem, off the diagonal, and within the cutoff. -/
def cutTile (i : grid0.Coords) (x0 : Vec F S1024x3 .f32) (x1 : Vec F S512x3 .f32) (x2 : Vec F S1024x1 .i32) (x3 : Vec F S1x512 .i32)
    (x4 : Vec F S1024x1 .f32) (x5 : Vec F S1x512 .f32) : IVec S1024x512 1 :=
  k0_pay9 i (View.ld x0 rRows) (View.ld x1 rCols) (View.ld x4 rColumn) (View.ld x5 rRow) (View.ld x2 rColumn) (View.ld x3 rRow)

/-- The distance tile: the root where the pair is within the cutoff, zero elsewhere. -/
def distTile (i : grid0.Coords) (x0 : Vec F S1024x3 .f32) (x1 : Vec F S512x3 .f32) (x2 : Vec F S1024x1 .i32) (x3 : Vec F S1x512 .i32)
    (x4 : Vec F S1024x1 .f32) (x5 : Vec F S1x512 .f32) : Vec F S1024x512 .f32 :=
  View.canon [⟨rTile, k0_pay1 (rootTile i x0 x1 x2 x3 x4 x5) (cutTile i x0 x1 x2 x3 x4 x5) (Scalar.ofBits .f32 0x00000000#32)⟩]

/-- The mask tile: the cutoff bit widened to a word. -/
def maskTile (i : grid0.Coords) (x0 : Vec F S1024x3 .f32) (x1 : Vec F S512x3 .f32) (x2 : Vec F S1024x1 .i32) (x3 : Vec F S1x512 .i32)
    (x4 : Vec F S1024x1 .f32) (x5 : Vec F S1x512 .f32) : Vec F S1024x512 .i32 :=
  View.canon [⟨rTile, k0_pay2 (cutTile i x0 x1 x2 x3 x4 x5)⟩]

/-- The index tile: plane 0 the global row index of each entry, plane 1 its global column index (the later store first). -/
def pairTile (i : grid0.Coords) : Vec F S2x1024x512 .i32 :=
  View.canon [⟨rPlane1, k0_pay4 (k0_pay6 i)⟩, ⟨rPlane0, k0_pay3 (k0_pay5 i)⟩]

/-- One whole-tile store covers the tile. -/
theorem cover_tile_f (p0 : Vec F S1024x512 .f32) (y : S1024x512.Idx) :
    ∃ pc ∈ ([⟨rTile, p0⟩] : List (View.Piece (Elt F) S1024x512 .f32)), y ∈ pc.1.set :=
  View.cover_of_tiled [⟨rTile, p0⟩] S1024x512.size (by rfl) y
theorem cover_tile_i (p0 : Vec F S1024x512 .i32) (y : S1024x512.Idx) :
    ∃ pc ∈ ([⟨rTile, p0⟩] : List (View.Piece (Elt F) S1024x512 .i32)), y ∈ pc.1.set :=
  View.cover_of_tiled [⟨rTile, p0⟩] S1024x512.size (by rfl) y
/-- The two plane stores together cover the index tile. -/
theorem cover_planes (p1 p0 : Vec F S1x1024x512 .i32) (y : S2x1024x512.Idx) :
    ∃ pc ∈ ([⟨rPlane1, p1⟩, ⟨rPlane0, p0⟩] : List (View.Piece (Elt F) S2x1024x512 .i32)), y ∈ pc.1.set :=
  View.cover_of_tiled [⟨rPlane1, p1⟩, ⟨rPlane0, p0⟩] S1x1024x512.size (by rfl) y

/-! ## The body's triple -/

set_option maxHeartbeats 4000000 in
/-- The body on whole staging memrefs — the inputs' at read contents `x0 … x5`, the outputs' at anything — runs to
    the continuation holding the inputs' as they were and the outputs' at the three tiles above. -/
theorem sound_kernel (c : Dev nD) (E : Set ℕ) (i : grid0.Coords)
    (arg2 : Memref sig .tc .vmem S1024x3 .f32) (harg2 : arg2.IsWhole) (arg3 : Memref sig .tc .vmem S512x3 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1x512 .f32) (harg7 : arg7.IsWhole)
    (arg8 : Memref sig .tc .vmem S1024x512 .f32) (harg8 : arg8.IsWhole) (arg9 : Memref sig .tc .vmem S1024x512 .i32) (harg9 : arg9.IsWhole)
    (arg10 : Memref sig .tc .vmem S2x1024x512 .i32) (harg10 : arg10.IsWhole)
    (x0 : Vec F S1024x3 .f32) (x1 : Vec F S512x3 .f32) (x2 : Vec F S1024x1 .i32) (x3 : Vec F S1x512 .i32)
    (x4 : Vec F S1024x1 .f32) (x5 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (distTile i x0 x1 x2 x3 x4 x5) ∗ owns (c : Thread nD τ) arg9 fullShare (maskTile i x0 x1 x2 x3 x4 x5)
            ∗ owns (c : Thread nD τ) arg10 fullShare (pairTile (F := F) i)) -∗ K ⟨⟩))
      ⊢ wp frame (wpE (defs₀ (F := F)) Variants.none c none) E
          (cc0__neighbor_kernel i arg2 harg2 arg3 harg3 arg4 harg4 arg5 harg5 arg6 harg6 arg7 harg7 arg8 harg8 arg9 harg9 arg10 harg10) K := by
  simp only [cc0__neighbor_kernel_eq_skeleton]; unfold cc0__neighbor_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile_f _)
  isplitl [H7]
  · iexists _; isplitr
    swap; · iexact H7
    ipureintro
    exact View.read_writes_eq_canon _ _ _ (cover_tile_i _)
  iexists _; isplitr
  swap; · iexact H8
  ipureintro
  exact View.read_writes_eq_canon _ _ _ (cover_planes _ _)

end Cert.Kernel.Hand

end
-- ==== Proof.PointDataBits.lean ====
/-
  The proof data of the pipelined launch of the pairwise-distance kernel: at every grid point each input
  window's staging buffer holds that window's block of its array, and the body leaves the three output tiles
  computed from those six blocks. The two coordinate windows read one array; each holds half of its share.
-/
import proofs.«169215_j6657199309587_2_alg».proof.Proof.Gen.Kernel.Launch
import proofs.«169215_j6657199309587_2_alg».proof.Proof.Gen.Kernel.Skeleton
import proofs.«169215_j6657199309587_2_alg».proof.Proof.Gen.Kernel.Points
import proofs.«169215_j6657199309587_2_alg».proof.Proof.PointBodyBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the region finds them; after the body at point `t` each input's
    buffer at its block and each output's at its tile of the six input blocks; the invariant the scoped rest and the
    generator register, untouched; nothing owed; the coordinates' array shared in halves by its two windows. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => distTile (cfg0.grid.coords t) (iblk V c 0 t) (iblk V c 1 t) (iblk V c 2 t) (iblk V c 3 t) (iblk V c 4 t) (iblk V c 5 t)
    | ⟨7, _⟩ => maskTile (cfg0.grid.coords t) (iblk V c 0 t) (iblk V c 1 t) (iblk V c 2 t) (iblk V c 3 t) (iblk V c 4 t) (iblk V c 5 t)
    | ⟨8, _⟩ => pairTile (cfg0.grid.coords t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) : (dat0 V c).after 5 t = iblk V c 5 t := by dsimp only [dat0]
theorem after6 (c : Dev nD) (t : Fin cfg0.N) : (dat0 V c).after 6 t = distTile (cfg0.grid.coords t) (iblk V c 0 t) (iblk V c 1 t) (iblk V c 2 t) (iblk V c 3 t) (iblk V c 4 t) (iblk V c 5 t) := by dsimp only [dat0]
theorem after7 (c : Dev nD) (t : Fin cfg0.N) : (dat0 V c).after 7 t = maskTile (cfg0.grid.coords t) (iblk V c 0 t) (iblk V c 1 t) (iblk V c 2 t) (iblk V c 3 t) (iblk V c 4 t) (iblk V c 5 t) := by dsimp only [dat0]
theorem after8 (c : Dev nD) (t : Fin cfg0.N) : (dat0 V c).after 8 t = pairTile (cfg0.grid.coords t) := by dsimp only [dat0]

theorem before0 (c : Dev nD) (t : Fin cfg0.N) (d) : (dat0 V c).before 0 t d = iblk V c 0 t :=
  before0_of V (dat0 V c) (A_eq V c 0) (after0 V c) t d
theorem before1 (c : Dev nD) (t : Fin cfg0.N) (d) : (dat0 V c).before 1 t d = iblk V c 1 t :=
  before1_of V (dat0 V c) (A_eq V c 1) (after1 V c) t d
theorem before2 (c : Dev nD) (t : Fin cfg0.N) (d) : (dat0 V c).before 2 t d = iblk V c 2 t :=
  before2_of V (dat0 V c) (A_eq V c 2) (after2 V c) t d
theorem before3 (c : Dev nD) (t : Fin cfg0.N) (d) : (dat0 V c).before 3 t d = iblk V c 3 t :=
  before3_of V (dat0 V c) (A_eq V c 3) (after3 V c) t d
theorem before4 (c : Dev nD) (t : Fin cfg0.N) (d) : (dat0 V c).before 4 t d = iblk V c 4 t :=
  before4_of V (dat0 V c) (A_eq V c 4) (after4 V c) t d
theorem before5 (c : Dev nD) (t : Fin cfg0.N) (d) : (dat0 V c).before 5 t d = iblk V c 5 t :=
  before5_of V (dat0 V c) (A_eq V c 5) (after5 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat0 V c).Φ t.succ = (dat0 V c).Φ t.castSucc from rfl,
    show (dat0 V c).owesAt () t.succ = (dat0 V c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (cfg0.grid.coords t) _ _ _ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.WholeRunBits.lean ====
/-
  The whole program around the launch: seven host lines (the two reshapes of the ids, the squared norms and their
  two reshapes), the pipelined launch over the 8 × 16 grid, seven host lines (the mask word compared with zero, the
  three results flattened). Every buffer of the program is followed through these three stretches: at the end each
  holds the host lines' value of what the launch left, and the launch leaves every input array as it found it.
-/
import proofs.«169215_j6657199309587_2_alg».proof.Proof.Gen.Kernel.Launch
import proofs.«169215_j6657199309587_2_alg».proof.Proof.Gen.Kernel.Skeleton
import proofs.«169215_j6657199309587_2_alg».proof.Proof.Gen.Kernel.Points
import proofs.«169215_j6657199309587_2_alg».proof.Proof.PointDataBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => (s₀ m ρ).mem ((c : Dev nD), b)
/-- After the first seven host lines (the launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- What the launch leaves in its three result arrays: every write-back folded in. -/
abbrev distArr (c : Dev nD) := (dat0 (V1 m ρ) c).arrAt 6 cfg0.N
abbrev maskArr (c : Dev nD) := (dat0 (V1 m ρ) c).arrAt 7 cfg0.N
abbrev pairArr (c : Dev nD) := (dat0 (V1 m ρ) c).arrAt 8 cfg0.N
/-- At the launch's exit: the three result arrays as the launch leaves them, every other buffer as entered. -/
def W2 (c : Dev nD) : Valuation τ sig (Elt F) :=
  Function.update (Function.update (Function.update (W1 m ρ c) main_v6_0 (distArr m ρ c)) main_v6_1 (maskArr m ρ c)) main_v6_2 (pairArr m ρ c)
abbrev V2 : (c : Dev nD) → (b : Ref sig .tc) → Buf (Elt F) ((c : Thread nD τ).loc b) := fun c b => W2 m ρ c b
/-- After the last seven host lines. -/
abbrev W3 : Dev nD → Valuation τ sig (Elt F) := fun c => StableHlo.after hostOps1 (W2 m ρ c)

theorem W2_dist (c : Dev nD) : W2 m ρ c main_v6_0 = distArr m ρ c := by
  unfold W2
  rw [Function.update_of_ne (StableHlo.devRef_ne_of_ne (by decide)), Function.update_of_ne (StableHlo.devRef_ne_of_ne (by decide)), Function.update_self]
theorem W2_mask (c : Dev nD) : W2 m ρ c main_v6_1 = maskArr m ρ c := by
  unfold W2
  rw [Function.update_of_ne (StableHlo.devRef_ne_of_ne (by decide)), Function.update_self]
theorem W2_pair (c : Dev nD) : W2 m ρ c main_v6_2 = pairArr m ρ c := by
  unfold W2
  rw [Function.update_self]
theorem W2_of_ne (c : Dev nD) (b : Ref sig .tc) (h0 : b ≠ main_v6_0) (h1 : b ≠ main_v6_1) (h2 : b ≠ main_v6_2) :
    W2 m ρ c b = W1 m ρ c b := by
  unfold W2
  rw [Function.update_of_ne (StableHlo.devRef_ne_of_ne h2), Function.update_of_ne (StableHlo.devRef_ne_of_ne h1),
    Function.update_of_ne (StableHlo.devRef_ne_of_ne h0)]

/-! ## The launch's arrays among the core's buffers: the coordinates' array dealt in halves and joined again -/

theorem arrays_chain (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V c).arrays G : sProp 𝕄) = iprop((((c : Thread nD τ).loc main_arg0) ↦{fullShare.left} G 0) ∗ (((c : Thread nD τ).loc main_arg0) ↦{fullShare.right} G 1)
      ∗ (((c : Thread nD τ).loc main_v0) ↦{fullShare} G 2) ∗ (((c : Thread nD τ).loc main_v1) ↦{fullShare} G 3)
      ∗ (((c : Thread nD τ).loc main_v4) ↦{fullShare} G 4) ∗ (((c : Thread nD τ).loc main_v5) ↦{fullShare} G 5)
      ∗ (((c : Thread nD τ).loc main_v6_0) ↦{fullShare} G 6) ∗ (((c : Thread nD τ).loc main_v6_1) ↦{fullShare} G 7)
      ∗ (((c : Thread nD τ).loc main_v6_2) ↦{fullShare} G 8)) := by
  unfold Dat.arrays
  rw [bigSep_W0]
  rw [(arr_whole0 0).set_eq_univ, (arr_whole0 2).set_eq_univ, (arr_whole0 3).set_eq_univ, (arr_whole0 4).set_eq_univ,
    (arr_whole0 5).set_eq_univ, (arr_whole0 6).set_eq_univ, (arr_whole0 7).set_eq_univ, (arr_whole0 8).set_eq_univ]
  rfl

theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0)
      ∗ (((c : Thread nD τ).loc main_v0) ↦{fullShare} W main_v0) ∗ (((c : Thread nD τ).loc main_v1) ↦{fullShare} W main_v1)
      ∗ (((c : Thread nD τ).loc main_v4) ↦{fullShare} W main_v4) ∗ (((c : Thread nD τ).loc main_v5) ↦{fullShare} W main_v5)
      ∗ (((c : Thread nD τ).loc main_v6_0) ↦{fullShare} W main_v6_0) ∗ (((c : Thread nD τ).loc main_v6_1) ↦{fullShare} W main_v6_1)
      ∗ (((c : Thread nD τ).loc main_v6_2) ↦{fullShare} W main_v6_2)) := by
  unfold Pipeline.arrBufs
  exact bigSep_eq_bigSepL_of_eq [main_arg0, main_v0, main_v1, main_v4, main_v5, main_v6_0, main_v6_1, main_v6_2] (by decide) (by decide) _

/-- ENTRY: the core's buffers at the entry contents are the launch's arrays — the coordinates' array in two halves, one
    per window on it — and the buffers that bypass the launch. -/
theorem entry_split (c : Dev nD) :
    (unscopedBufs c (V1 m ρ c) : sProp 𝕄)
      ⊢ iprop((dat0 (V1 m ρ) c).arrays ((dat0 (V1 m ρ) c).arrAt · 0) ∗ Pipeline.unscopedRest spec0 c (V1 m ρ c)) := by
  rw [Pipeline.unscopedBufs_split₀ cfgs 0 winFacts₀0.arr_unscoped c (V1 m ρ c), arrays_chain, arrBufs_chain]
  iintro ⟨⟨Ha, H2, H3, H4, H5, H6, H7, H8⟩, Hrest⟩
  ihave Ha' := (pointsTo_share (PosShare.mem_left_op_right fullShare)).1 $$ Ha
  icases Ha' with ⟨Hl, Hr⟩
  isplitr [Hrest]
  swap; · iexact Hrest
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  iexact H8

/-- The bypassing buffers hold at the exit what they held at the entry. -/
theorem rest_exit (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  refine bigSep_congr fun b hb => ?_
  have hb' := (Finset.mem_sdiff.mp hb).2
  rw [show V2 m ρ c b = V1 m ρ c b from W2_of_ne m ρ c b
    (fun e => hb' (e ▸ Finset.mem_image.mpr ⟨6, Finset.mem_univ _, rfl⟩))
    (fun e => hb' (e ▸ Finset.mem_image.mpr ⟨7, Finset.mem_univ _, rfl⟩))
    (fun e => hb' (e ▸ Finset.mem_image.mpr ⟨8, Finset.mem_univ _, rfl⟩))]

/-- EXIT: the launch's arrays at their final contents — the inputs as entered, the two halves of the coordinates' array
    joined — and the bypassing buffers are the core's buffers at the exit contents. -/
theorem exit_join (c : Dev nD) :
    iprop((dat0 (V1 m ρ) c).arrays ((dat0 (V1 m ρ) c).arrAt · cfg0.N) ∗ Pipeline.unscopedRest spec0 c (V1 m ρ c))
      ⊢ (unscopedBufs c (V2 m ρ c) : sProp 𝕄) := by
  rw [Pipeline.unscopedBufs_split₀ cfgs 0 winFacts₀0.arr_unscoped c (V2 m ρ c), arrays_chain, arrBufs_chain, rest_exit]
  rw [(dat0 (V1 m ρ) c).arrAt_in 0 rfl, (dat0 (V1 m ρ) c).arrAt_in 1 rfl, (dat0 (V1 m ρ) c).arrAt_in 2 rfl,
    (dat0 (V1 m ρ) c).arrAt_in 3 rfl, (dat0 (V1 m ρ) c).arrAt_in 4 rfl, (dat0 (V1 m ρ) c).arrAt_in 5 rfl]
  rw [show V2 m ρ c main_arg0 = V1 m ρ c main_arg0 from W2_of_ne m ρ c main_arg0 (by decide) (by decide) (by decide),
    show V2 m ρ c main_v0 = V1 m ρ c main_v0 from W2_of_ne m ρ c main_v0 (by decide) (by decide) (by decide),
    show V2 m ρ c main_v1 = V1 m ρ c main_v1 from W2_of_ne m ρ c main_v1 (by decide) (by decide) (by decide),
    show V2 m ρ c main_v4 = V1 m ρ c main_v4 from W2_of_ne m ρ c main_v4 (by decide) (by decide) (by decide),
    show V2 m ρ c main_v5 = V1 m ρ c main_v5 from W2_of_ne m ρ c main_v5 (by decide) (by decide) (by decide),
    show V2 m ρ c main_v6_0 = distArr m ρ c from W2_dist m ρ c,
    show V2 m ρ c main_v6_1 = maskArr m ρ c from W2_mask m ρ c,
    show V2 m ρ c main_v6_2 = pairArr m ρ c from W2_pair m ρ c]
  iintro ⟨⟨Hl, Hr, H2, H3, H4, H5, H6, H7, H8⟩, Hrest⟩
  isplitr [Hrest]
  swap; · iexact Hrest
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  isplitl [H6]; · iexact H6
  isplitl [H7]; · iexact H7
  iexact H8

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the generator register at some state and the core's dues, none. -/
abbrev R (c : Dev nD) : sProp 𝕄 := iprop((∃ r, prngReg c r) ∗ ∃ W, owes (c : Thread nD τ) (0 : CellTallies nD τ sig Unit) W)
/-- A stretch of host lines over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- THE LAUNCH over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · (Pipeline.pin (pcfgs (F := F)) adm 0).N)
        ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := by
      have h := exit_join m ρ c
      rw [Pipeline.unscopedBufs_held] at h
      exact h
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as three stretches, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN, at any float instance: from any memory with zero counters every weakly fair execution of the program on
    the TensorCores terminates, nothing faulting, and every final state has each unscoped buffer at the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ (iprop(Tₙ m ρ c ∗ ∃ W, owes (c : Thread nD τ) (0 : CellTallies nD τ sig Unit) W) : sProp 𝕄) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.ArgsKeptBits.lean ====
/-
  The two argument arrays at the end of the program: no host line writes them and the launch hands its input
  arrays back as found, so each holds its launch contents; with the run this is the frame.
-/
import proofs.«169215_j6657199309587_2_alg».proof.Proof.Gen.Kernel.Launch
import proofs.«169215_j6657199309587_2_alg».proof.Proof.Gen.Kernel.Skeleton
import proofs.«169215_j6657199309587_2_alg».proof.Proof.Gen.Kernel.Points
import proofs.«169215_j6657199309587_2_alg».proof.Proof.WholeRunBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No line and no launch changes an argument -/

theorem after0_of_not_written (c : Dev nD) (W : Valuation τ sig (Elt F)) (b : Ref sig .tc)
    (hb : b ≠ main_v0 ∧ b ≠ main_v1 ∧ b ≠ main_v2 ∧ b ≠ main_cst ∧ b ≠ main_v3 ∧ b ≠ main_v4 ∧ b ≠ main_v5) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2.1,
      StableHlo.devRef_ne_of_ne hb.2.2.2.2.1, StableHlo.devRef_ne_of_ne hb.2.2.2.2.2.1, StableHlo.devRef_ne_of_ne hb.2.2.2.2.2.2⟩))

theorem after1_of_not_written (c : Dev nD) (W : Valuation τ sig (Elt F)) (b : Ref sig .tc)
    (hb : b ≠ main_c ∧ b ≠ main_v7 ∧ b ≠ main_v8 ∧ b ≠ main_v9 ∧ b ≠ main_v10 ∧ b ≠ main_v11 ∧ b ≠ main_v12) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2.1,
      StableHlo.devRef_ne_of_ne hb.2.2.2.2.1, StableHlo.devRef_ne_of_ne hb.2.2.2.2.2.1, StableHlo.devRef_ne_of_ne hb.2.2.2.2.2.2⟩))

theorem W3_arg0 (c : Dev nD) : W3 m ρ c main_arg0 = m ((c : Thread nD τ).loc main_arg0) :=
  calc W3 m ρ c main_arg0
    _ = W2 m ρ c main_arg0 := after1_of_not_written c _ main_arg0 (by decide)
    _ = W1 m ρ c main_arg0 := W2_of_ne m ρ c main_arg0 (by decide) (by decide) (by decide)
    _ = W0 m ρ c main_arg0 := after0_of_not_written c _ main_arg0 (by decide)
    _ = m ((c : Thread nD τ).loc main_arg0) := rfl

theorem W3_arg1 (c : Dev nD) : W3 m ρ c main_arg1 = m ((c : Thread nD τ).loc main_arg1) :=
  calc W3 m ρ c main_arg1
    _ = W2 m ρ c main_arg1 := after1_of_not_written c _ main_arg1 (by decide)
    _ = W1 m ρ c main_arg1 := W2_of_ne m ρ c main_arg1 (by decide) (by decide) (by decide)
    _ = W0 m ρ c main_arg1 := after0_of_not_written c _ main_arg1 (by decide)
    _ = m ((c : Thread nD τ).loc main_arg1) := rfl

/-- THE FRAME, at any float instance: the program runs to the end, nothing faulting, and its two argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W3_arg0 m ρ c),
    (h c _ (mem_uc main_arg1 (by decide))).trans (W3_arg1 m ρ c)⟩) (run_all m ρ)

end Cert.Kernel.Hand

end
-- ==== Proof.PointBody.lean ====
/-
  One grid point of the pairwise-distance kernel. The body reads six input tiles — the row block and the
  column block of the coordinates, the two blocks of subsystem ids, the two blocks of squared norms — and
  overwrites three output tiles: the masked distances, the cutoff mask widened to a word, and the two planes
  of row and column indices. What each output tile holds afterwards is the payload of its store(s) laid over
  the tile; the input tiles are left as found.
-/
import proofs.«169215_j6657199309587_2_alg».proof.Proof.Gen.KernelIdeal.Launch
import proofs.«169215_j6657199309587_2_alg».proof.Proof.Gen.KernelIdeal.Skeleton
import proofs.«169215_j6657199309587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes through: each is a whole tile, or one plane of the index tile -/

abbrev rRows : Rect S1024x3 := Rect.unit (s := S1024x3) ![0, 0] S1024x3.size Facts₀.inb_S1024x3_S1024x3_0_0
abbrev rCols : Rect S512x3 := Rect.unit (s := S512x3) ![0, 0] S512x3.size Facts₀.inb_S512x3_S512x3_0_0
abbrev rColumn : Rect S1024x1 := Rect.unit (s := S1024x1) ![0, 0] S1024x1.size Facts₀.inb_S1024x1_S1024x1_0_0
abbrev rRow : Rect S1x512 := Rect.unit (s := S1x512) ![0, 0] S1x512.size Facts₀.inb_S1x512_S1x512_0_0
abbrev rTile : Rect S1024x512 := Rect.unit (s := S1024x512) ![0, 0] S1024x512.size Facts₀.inb_S1024x512_S1024x512_0_0
abbrev rPlane0 : Rect S2x1024x512 := Rect.unit (s := S2x1024x512) ![0, 0, 0] S1x1024x512.size Facts₀.inb_S2x1024x512_S1x1024x512_0_0_0
abbrev rPlane1 : Rect S2x1024x512 := Rect.unit (s := S2x1024x512) ![1, 0, 0] S1x1024x512.size Facts₀.inb_S2x1024x512_S1x1024x512_1_0_0

/-! ## What the body leaves in each output tile, from the six input tiles at grid coordinates `i` -/

/-- The square roots of the guarded squared distances of the tile. -/
def rootTile (i : grid0.Coords) (x0 : Vec F S1024x3 .f32) (x1 : Vec F S512x3 .f32) (x2 : Vec F S1024x1 .i32) (x3 : Vec F S1x512 .i32)
    (x4 : Vec F S1024x1 .f32) (x5 : Vec F S1x512 .f32) : FVec F S1024x512 .f32 :=
  k0_pay8 i (View.ld x0 rRows) (View.ld x1 rCols) (View.ld x4 rColumn) (View.ld x5 rRow) (View.ld x2 rColumn) (View.ld x3 rRow)

/-- The pairs of the tile that are in one subsystem, off the diagonal, and within the cutoff. -/
def cutTile (i : grid0.Coords) (x0 : Vec F S1024x3 .f32) (x1 : Vec F S512x3 .f32) (x2 : Vec F S1024x1 .i32) (x3 : Vec F S1x512 .i32)
    (x4 : Vec F S1024x1 .f32) (x5 : Vec F S1x512 .f32) : IVec S1024x512 1 :=
  k0_pay9 i (View.ld x0 rRows) (View.ld x1 rCols) (View.ld x4 rColumn) (View.ld x5 rRow) (View.ld x2 rColumn) (View.ld x3 rRow)

/-- The distance tile: the root where the pair is within the cutoff, zero elsewhere. -/
def distTile (i : grid0.Coords) (x0 : Vec F S1024x3 .f32) (x1 : Vec F S512x3 .f32) (x2 : Vec F S1024x1 .i32) (x3 : Vec F S1x512 .i32)
    (x4 : Vec F S1024x1 .f32) (x5 : Vec F S1x512 .f32) : Vec F S1024x512 .f32 :=
  View.canon [⟨rTile, k0_pay1 (rootTile i x0 x1 x2 x3 x4 x5) (cutTile i x0 x1 x2 x3 x4 x5) (Scalar.ofBits .f32 0x00000000#32)⟩]

/-- The mask tile: the cutoff bit widened to a word. -/
def maskTile (i : grid0.Coords) (x0 : Vec F S1024x3 .f32) (x1 : Vec F S512x3 .f32) (x2 : Vec F S1024x1 .i32) (x3 : Vec F S1x512 .i32)
    (x4 : Vec F S1024x1 .f32) (x5 : Vec F S1x512 .f32) : Vec F S1024x512 .i32 :=
  View.canon [⟨rTile, k0_pay2 (cutTile i x0 x1 x2 x3 x4 x5)⟩]

/-- The index tile: plane 0 the global row index of each entry, plane 1 its global column index (the later store first). -/
def pairTile (i : grid0.Coords) : Vec F S2x1024x512 .i32 :=
  View.canon [⟨rPlane1, k0_pay4 (k0_pay6 i)⟩, ⟨rPlane0, k0_pay3 (k0_pay5 i)⟩]

/-- One whole-tile store covers the tile. -/
theorem cover_tile_f (p0 : Vec F S1024x512 .f32) (y : S1024x512.Idx) :
    ∃ pc ∈ ([⟨rTile, p0⟩] : List (View.Piece (Elt F) S1024x512 .f32)), y ∈ pc.1.set :=
  View.cover_of_tiled [⟨rTile, p0⟩] S1024x512.size (by rfl) y
theorem cover_tile_i (p0 : Vec F S1024x512 .i32) (y : S1024x512.Idx) :
    ∃ pc ∈ ([⟨rTile, p0⟩] : List (View.Piece (Elt F) S1024x512 .i32)), y ∈ pc.1.set :=
  View.cover_of_tiled [⟨rTile, p0⟩] S1024x512.size (by rfl) y
/-- The two plane stores together cover the index tile. -/
theorem cover_planes (p1 p0 : Vec F S1x1024x512 .i32) (y : S2x1024x512.Idx) :
    ∃ pc ∈ ([⟨rPlane1, p1⟩, ⟨rPlane0, p0⟩] : List (View.Piece (Elt F) S2x1024x512 .i32)), y ∈ pc.1.set :=
  View.cover_of_tiled [⟨rPlane1, p1⟩, ⟨rPlane0, p0⟩] S1x1024x512.size (by rfl) y

/-! ## The body's triple -/

set_option maxHeartbeats 4000000 in
/-- The body on whole staging memrefs — the inputs' at read contents `x0 … x5`, the outputs' at anything — runs to
    the continuation holding the inputs' as they were and the outputs' at the three tiles above. -/
theorem sound_kernel (c : Dev nD) (E : Set ℕ) (i : grid0.Coords)
    (arg2 : Memref sig .tc .vmem S1024x3 .f32) (harg2 : arg2.IsWhole) (arg3 : Memref sig .tc .vmem S512x3 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1x512 .f32) (harg7 : arg7.IsWhole)
    (arg8 : Memref sig .tc .vmem S1024x512 .f32) (harg8 : arg8.IsWhole) (arg9 : Memref sig .tc .vmem S1024x512 .i32) (harg9 : arg9.IsWhole)
    (arg10 : Memref sig .tc .vmem S2x1024x512 .i32) (harg10 : arg10.IsWhole)
    (x0 : Vec F S1024x3 .f32) (x1 : Vec F S512x3 .f32) (x2 : Vec F S1024x1 .i32) (x3 : Vec F S1x512 .i32)
    (x4 : Vec F S1024x1 .f32) (x5 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (distTile i x0 x1 x2 x3 x4 x5) ∗ owns (c : Thread nD τ) arg9 fullShare (maskTile i x0 x1 x2 x3 x4 x5)
            ∗ owns (c : Thread nD τ) arg10 fullShare (pairTile (F := F) i)) -∗ K ⟨⟩))
      ⊢ wp frame (wpE (defs₀ (F := F)) Variants.none c none) E
          (cc0__neighbor_kernel i arg2 harg2 arg3 harg3 arg4 harg4 arg5 harg5 arg6 harg6 arg7 harg7 arg8 harg8 arg9 harg9 arg10 harg10) K := by
  simp only [cc0__neighbor_kernel_eq_skeleton]; unfold cc0__neighbor_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile_f _)
  isplitl [H7]
  · iexists _; isplitr
    swap; · iexact H7
    ipureintro
    exact View.read_writes_eq_canon _ _ _ (cover_tile_i _)
  iexists _; isplitr
  swap; · iexact H8
  ipureintro
  exact View.read_writes_eq_canon _ _ _ (cover_planes _ _)

end Cert.KernelIdeal.Hand

end
-- ==== Proof.PointData.lean ====
/-
  The proof data of the pipelined launch of the pairwise-distance kernel: at every grid point each input
  window's staging buffer holds that window's block of its array, and the body leaves the three output tiles
  computed from those six blocks. The two coordinate windows read one array; each holds half of its share.
-/
import proofs.«169215_j6657199309587_2_alg».proof.Proof.Gen.KernelIdeal.Launch
import proofs.«169215_j6657199309587_2_alg».proof.Proof.Gen.KernelIdeal.Skeleton
import proofs.«169215_j6657199309587_2_alg».proof.Proof.Gen.KernelIdeal.Points
import proofs.«169215_j6657199309587_2_alg».proof.Proof.PointBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the region finds them; after the body at point `t` each input's
    buffer at its block and each output's at its tile of the six input blocks; the invariant the scoped rest and the
    generator register, untouched; nothing owed; the coordinates' array shared in halves by its two windows. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => distTile (cfg0.grid.coords t) (iblk V c 0 t) (iblk V c 1 t) (iblk V c 2 t) (iblk V c 3 t) (iblk V c 4 t) (iblk V c 5 t)
    | ⟨7, _⟩ => maskTile (cfg0.grid.coords t) (iblk V c 0 t) (iblk V c 1 t) (iblk V c 2 t) (iblk V c 3 t) (iblk V c 4 t) (iblk V c 5 t)
    | ⟨8, _⟩ => pairTile (cfg0.grid.coords t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) : (dat0 V c).after 5 t = iblk V c 5 t := by dsimp only [dat0]
theorem after6 (c : Dev nD) (t : Fin cfg0.N) : (dat0 V c).after 6 t = distTile (cfg0.grid.coords t) (iblk V c 0 t) (iblk V c 1 t) (iblk V c 2 t) (iblk V c 3 t) (iblk V c 4 t) (iblk V c 5 t) := by dsimp only [dat0]
theorem after7 (c : Dev nD) (t : Fin cfg0.N) : (dat0 V c).after 7 t = maskTile (cfg0.grid.coords t) (iblk V c 0 t) (iblk V c 1 t) (iblk V c 2 t) (iblk V c 3 t) (iblk V c 4 t) (iblk V c 5 t) := by dsimp only [dat0]
theorem after8 (c : Dev nD) (t : Fin cfg0.N) : (dat0 V c).after 8 t = pairTile (cfg0.grid.coords t) := by dsimp only [dat0]

theorem before0 (c : Dev nD) (t : Fin cfg0.N) (d) : (dat0 V c).before 0 t d = iblk V c 0 t :=
  before0_of V (dat0 V c) (A_eq V c 0) (after0 V c) t d
theorem before1 (c : Dev nD) (t : Fin cfg0.N) (d) : (dat0 V c).before 1 t d = iblk V c 1 t :=
  before1_of V (dat0 V c) (A_eq V c 1) (after1 V c) t d
theorem before2 (c : Dev nD) (t : Fin cfg0.N) (d) : (dat0 V c).before 2 t d = iblk V c 2 t :=
  before2_of V (dat0 V c) (A_eq V c 2) (after2 V c) t d
theorem before3 (c : Dev nD) (t : Fin cfg0.N) (d) : (dat0 V c).before 3 t d = iblk V c 3 t :=
  before3_of V (dat0 V c) (A_eq V c 3) (after3 V c) t d
theorem before4 (c : Dev nD) (t : Fin cfg0.N) (d) : (dat0 V c).before 4 t d = iblk V c 4 t :=
  before4_of V (dat0 V c) (A_eq V c 4) (after4 V c) t d
theorem before5 (c : Dev nD) (t : Fin cfg0.N) (d) : (dat0 V c).before 5 t d = iblk V c 5 t :=
  before5_of V (dat0 V c) (A_eq V c 5) (after5 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat0 V c).Φ t.succ = (dat0 V c).Φ t.castSucc from rfl,
    show (dat0 V c).owesAt () t.succ = (dat0 V c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (cfg0.grid.coords t) _ _ _ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.WholeRun.lean ====
/-
  The whole program around the launch: seven host lines (the two reshapes of the ids, the squared norms and their
  two reshapes), the pipelined launch over the 8 × 16 grid, seven host lines (the mask word compared with zero, the
  three results flattened). Every buffer of the program is followed through these three stretches: at the end each
  holds the host lines' value of what the launch left, and the launch leaves every input array as it found it.
-/
import proofs.«169215_j6657199309587_2_alg».proof.Proof.Gen.KernelIdeal.Launch
import proofs.«169215_j6657199309587_2_alg».proof.Proof.Gen.KernelIdeal.Skeleton
import proofs.«169215_j6657199309587_2_alg».proof.Proof.Gen.KernelIdeal.Points
import proofs.«169215_j6657199309587_2_alg».proof.Proof.PointData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => (s₀ m ρ).mem ((c : Dev nD), b)
/-- After the first seven host lines (the launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- What the launch leaves in its three result arrays: every write-back folded in. -/
abbrev distArr (c : Dev nD) := (dat0 (V1 m ρ) c).arrAt 6 cfg0.N
abbrev maskArr (c : Dev nD) := (dat0 (V1 m ρ) c).arrAt 7 cfg0.N
abbrev pairArr (c : Dev nD) := (dat0 (V1 m ρ) c).arrAt 8 cfg0.N
/-- At the launch's exit: the three result arrays as the launch leaves them, every other buffer as entered. -/
def W2 (c : Dev nD) : Valuation τ sig (Elt F) :=
  Function.update (Function.update (Function.update (W1 m ρ c) main_v6_0 (distArr m ρ c)) main_v6_1 (maskArr m ρ c)) main_v6_2 (pairArr m ρ c)
abbrev V2 : (c : Dev nD) → (b : Ref sig .tc) → Buf (Elt F) ((c : Thread nD τ).loc b) := fun c b => W2 m ρ c b
/-- After the last seven host lines. -/
abbrev W3 : Dev nD → Valuation τ sig (Elt F) := fun c => StableHlo.after hostOps1 (W2 m ρ c)

theorem W2_dist (c : Dev nD) : W2 m ρ c main_v6_0 = distArr m ρ c := by
  unfold W2
  rw [Function.update_of_ne (StableHlo.devRef_ne_of_ne (by decide)), Function.update_of_ne (StableHlo.devRef_ne_of_ne (by decide)), Function.update_self]
theorem W2_mask (c : Dev nD) : W2 m ρ c main_v6_1 = maskArr m ρ c := by
  unfold W2
  rw [Function.update_of_ne (StableHlo.devRef_ne_of_ne (by decide)), Function.update_self]
theorem W2_pair (c : Dev nD) : W2 m ρ c main_v6_2 = pairArr m ρ c := by
  unfold W2
  rw [Function.update_self]
theorem W2_of_ne (c : Dev nD) (b : Ref sig .tc) (h0 : b ≠ main_v6_0) (h1 : b ≠ main_v6_1) (h2 : b ≠ main_v6_2) :
    W2 m ρ c b = W1 m ρ c b := by
  unfold W2
  rw [Function.update_of_ne (StableHlo.devRef_ne_of_ne h2), Function.update_of_ne (StableHlo.devRef_ne_of_ne h1),
    Function.update_of_ne (StableHlo.devRef_ne_of_ne h0)]

/-! ## The launch's arrays among the core's buffers: the coordinates' array dealt in halves and joined again -/

theorem arrays_chain (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V c).arrays G : sProp 𝕄) = iprop((((c : Thread nD τ).loc main_arg0) ↦{fullShare.left} G 0) ∗ (((c : Thread nD τ).loc main_arg0) ↦{fullShare.right} G 1)
      ∗ (((c : Thread nD τ).loc main_v0) ↦{fullShare} G 2) ∗ (((c : Thread nD τ).loc main_v1) ↦{fullShare} G 3)
      ∗ (((c : Thread nD τ).loc main_v4) ↦{fullShare} G 4) ∗ (((c : Thread nD τ).loc main_v5) ↦{fullShare} G 5)
      ∗ (((c : Thread nD τ).loc main_v6_0) ↦{fullShare} G 6) ∗ (((c : Thread nD τ).loc main_v6_1) ↦{fullShare} G 7)
      ∗ (((c : Thread nD τ).loc main_v6_2) ↦{fullShare} G 8)) := by
  unfold Dat.arrays
  rw [bigSep_W0]
  rw [(arr_whole0 0).set_eq_univ, (arr_whole0 2).set_eq_univ, (arr_whole0 3).set_eq_univ, (arr_whole0 4).set_eq_univ,
    (arr_whole0 5).set_eq_univ, (arr_whole0 6).set_eq_univ, (arr_whole0 7).set_eq_univ, (arr_whole0 8).set_eq_univ]
  rfl

theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0)
      ∗ (((c : Thread nD τ).loc main_v0) ↦{fullShare} W main_v0) ∗ (((c : Thread nD τ).loc main_v1) ↦{fullShare} W main_v1)
      ∗ (((c : Thread nD τ).loc main_v4) ↦{fullShare} W main_v4) ∗ (((c : Thread nD τ).loc main_v5) ↦{fullShare} W main_v5)
      ∗ (((c : Thread nD τ).loc main_v6_0) ↦{fullShare} W main_v6_0) ∗ (((c : Thread nD τ).loc main_v6_1) ↦{fullShare} W main_v6_1)
      ∗ (((c : Thread nD τ).loc main_v6_2) ↦{fullShare} W main_v6_2)) := by
  unfold Pipeline.arrBufs
  exact bigSep_eq_bigSepL_of_eq [main_arg0, main_v0, main_v1, main_v4, main_v5, main_v6_0, main_v6_1, main_v6_2] (by decide) (by decide) _

/-- ENTRY: the core's buffers at the entry contents are the launch's arrays — the coordinates' array in two halves, one
    per window on it — and the buffers that bypass the launch. -/
theorem entry_split (c : Dev nD) :
    (unscopedBufs c (V1 m ρ c) : sProp 𝕄)
      ⊢ iprop((dat0 (V1 m ρ) c).arrays ((dat0 (V1 m ρ) c).arrAt · 0) ∗ Pipeline.unscopedRest spec0 c (V1 m ρ c)) := by
  rw [Pipeline.unscopedBufs_split₀ cfgs 0 winFacts₀0.arr_unscoped c (V1 m ρ c), arrays_chain, arrBufs_chain]
  iintro ⟨⟨Ha, H2, H3, H4, H5, H6, H7, H8⟩, Hrest⟩
  ihave Ha' := (pointsTo_share (PosShare.mem_left_op_right fullShare)).1 $$ Ha
  icases Ha' with ⟨Hl, Hr⟩
  isplitr [Hrest]
  swap; · iexact Hrest
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  iexact H8

/-- The bypassing buffers hold at the exit what they held at the entry. -/
theorem rest_exit (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  refine bigSep_congr fun b hb => ?_
  have hb' := (Finset.mem_sdiff.mp hb).2
  rw [show V2 m ρ c b = V1 m ρ c b from W2_of_ne m ρ c b
    (fun e => hb' (e ▸ Finset.mem_image.mpr ⟨6, Finset.mem_univ _, rfl⟩))
    (fun e => hb' (e ▸ Finset.mem_image.mpr ⟨7, Finset.mem_univ _, rfl⟩))
    (fun e => hb' (e ▸ Finset.mem_image.mpr ⟨8, Finset.mem_univ _, rfl⟩))]

/-- EXIT: the launch's arrays at their final contents — the inputs as entered, the two halves of the coordinates' array
    joined — and the bypassing buffers are the core's buffers at the exit contents. -/
theorem exit_join (c : Dev nD) :
    iprop((dat0 (V1 m ρ) c).arrays ((dat0 (V1 m ρ) c).arrAt · cfg0.N) ∗ Pipeline.unscopedRest spec0 c (V1 m ρ c))
      ⊢ (unscopedBufs c (V2 m ρ c) : sProp 𝕄) := by
  rw [Pipeline.unscopedBufs_split₀ cfgs 0 winFacts₀0.arr_unscoped c (V2 m ρ c), arrays_chain, arrBufs_chain, rest_exit]
  rw [(dat0 (V1 m ρ) c).arrAt_in 0 rfl, (dat0 (V1 m ρ) c).arrAt_in 1 rfl, (dat0 (V1 m ρ) c).arrAt_in 2 rfl,
    (dat0 (V1 m ρ) c).arrAt_in 3 rfl, (dat0 (V1 m ρ) c).arrAt_in 4 rfl, (dat0 (V1 m ρ) c).arrAt_in 5 rfl]
  rw [show V2 m ρ c main_arg0 = V1 m ρ c main_arg0 from W2_of_ne m ρ c main_arg0 (by decide) (by decide) (by decide),
    show V2 m ρ c main_v0 = V1 m ρ c main_v0 from W2_of_ne m ρ c main_v0 (by decide) (by decide) (by decide),
    show V2 m ρ c main_v1 = V1 m ρ c main_v1 from W2_of_ne m ρ c main_v1 (by decide) (by decide) (by decide),
    show V2 m ρ c main_v4 = V1 m ρ c main_v4 from W2_of_ne m ρ c main_v4 (by decide) (by decide) (by decide),
    show V2 m ρ c main_v5 = V1 m ρ c main_v5 from W2_of_ne m ρ c main_v5 (by decide) (by decide) (by decide),
    show V2 m ρ c main_v6_0 = distArr m ρ c from W2_dist m ρ c,
    show V2 m ρ c main_v6_1 = maskArr m ρ c from W2_mask m ρ c,
    show V2 m ρ c main_v6_2 = pairArr m ρ c from W2_pair m ρ c]
  iintro ⟨⟨Hl, Hr, H2, H3, H4, H5, H6, H7, H8⟩, Hrest⟩
  isplitr [Hrest]
  swap; · iexact Hrest
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  isplitl [H6]; · iexact H6
  isplitl [H7]; · iexact H7
  iexact H8

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the generator register at some state and the core's dues, none. -/
abbrev R (c : Dev nD) : sProp 𝕄 := iprop((∃ r, prngReg c r) ∗ ∃ W, owes (c : Thread nD τ) (0 : CellTallies nD τ sig Unit) W)
/-- A stretch of host lines over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- THE LAUNCH over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · (Pipeline.pin (pcfgs (F := F)) adm 0).N)
        ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := by
      have h := exit_join m ρ c
      rw [Pipeline.unscopedBufs_held] at h
      exact h
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as three stretches, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN, at any float instance: from any memory with zero counters every weakly fair execution of the program on
    the TensorCores terminates, nothing faulting, and every final state has each unscoped buffer at the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ (iprop(Tₙ m ρ c ∗ ∃ W, owes (c : Thread nD τ) (0 : CellTallies nD τ sig Unit) W) : sProp 𝕄) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.ArgsKept.lean ====
/-
  The two argument arrays at the end of the program: no host line writes them and the launch hands its input
  arrays back as found, so each holds its launch contents; with the run this is the frame.
-/
import proofs.«169215_j6657199309587_2_alg».proof.Proof.Gen.KernelIdeal.Launch
import proofs.«169215_j6657199309587_2_alg».proof.Proof.Gen.KernelIdeal.Skeleton
import proofs.«169215_j6657199309587_2_alg».proof.Proof.Gen.KernelIdeal.Points
import proofs.«169215_j6657199309587_2_alg».proof.Proof.WholeRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No line and no launch changes an argument -/

theorem after0_of_not_written (c : Dev nD) (W : Valuation τ sig (Elt F)) (b : Ref sig .tc)
    (hb : b ≠ main_v0 ∧ b ≠ main_v1 ∧ b ≠ main_v2 ∧ b ≠ main_cst ∧ b ≠ main_v3 ∧ b ≠ main_v4 ∧ b ≠ main_v5) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2.1,
      StableHlo.devRef_ne_of_ne hb.2.2.2.2.1, StableHlo.devRef_ne_of_ne hb.2.2.2.2.2.1, StableHlo.devRef_ne_of_ne hb.2.2.2.2.2.2⟩))

theorem after1_of_not_written (c : Dev nD) (W : Valuation τ sig (Elt F)) (b : Ref sig .tc)
    (hb : b ≠ main_c ∧ b ≠ main_v7 ∧ b ≠ main_v8 ∧ b ≠ main_v9 ∧ b ≠ main_v10 ∧ b ≠ main_v11 ∧ b ≠ main_v12) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2.1,
      StableHlo.devRef_ne_of_ne hb.2.2.2.2.1, StableHlo.devRef_ne_of_ne hb.2.2.2.2.2.1, StableHlo.devRef_ne_of_ne hb.2.2.2.2.2.2⟩))

theorem W3_arg0 (c : Dev nD) : W3 m ρ c main_arg0 = m ((c : Thread nD τ).loc main_arg0) :=
  calc W3 m ρ c main_arg0
    _ = W2 m ρ c main_arg0 := after1_of_not_written c _ main_arg0 (by decide)
    _ = W1 m ρ c main_arg0 := W2_of_ne m ρ c main_arg0 (by decide) (by decide) (by decide)
    _ = W0 m ρ c main_arg0 := after0_of_not_written c _ main_arg0 (by decide)
    _ = m ((c : Thread nD τ).loc main_arg0) := rfl

theorem W3_arg1 (c : Dev nD) : W3 m ρ c main_arg1 = m ((c : Thread nD τ).loc main_arg1) :=
  calc W3 m ρ c main_arg1
    _ = W2 m ρ c main_arg1 := after1_of_not_written c _ main_arg1 (by decide)
    _ = W1 m ρ c main_arg1 := W2_of_ne m ρ c main_arg1 (by decide) (by decide) (by decide)
    _ = W0 m ρ c main_arg1 := after0_of_not_written c _ main_arg1 (by decide)
    _ = m ((c : Thread nD τ).loc main_arg1) := rfl

/-- THE FRAME, at any float instance: the program runs to the end, nothing faulting, and its two argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W3_arg0 m ρ c),
    (h c _ (mem_uc main_arg1 (by decide))).trans (W3_arg1 m ρ c)⟩) (run_all m ρ)

end Cert.KernelIdeal.Hand

end
-- ==== Proof.Spec.lean ====
/-
  The neighbour list of 8192 points in 3-space, cell by cell.

  For a pair (r, c) of point numbers the squared distance is read off the Gram matrix,
  r2 = (|x_r|^2 + |x_c|^2) - 2 * <x_r, x_c>, with the squared norms given as an array
  of their own; the pair counts when the two points carry the same identifier and r ≠ c;
  the distance of a counting pair is sqrt (max r2 0), that of any other pair sqrt 1;
  a pair is a neighbour when it counts and its distance is at most 1, and the
  distance written out is the distance of a neighbour and 0 elsewhere. No program
  is mentioned here: only the scalar operations and the arrays.
-/
import Idealize.ShloMosaic.PureOps.Ideal
import Idealize.ShloMosaic.Lib.ValueIdx

noncomputable section

open scoped BigOperators

namespace Cert.Nbr

open Idealize.ShloMosaic Idealize.ShloMosaic.ValueIdx

/-! ## One cell -/

/-- The pair (r, c) counts: same identifier, different point. -/
def pm (idr idc r c : BitVec 32) : BitVec 1 :=
  IntOp.andi (IntOp.cmpi .eq idr idc) (IntOp.cmpi .ne r c)

/-- The inner product of two points. -/
def gram (xr xc : Fin 3 → EReal) : EReal := ∑ k : Fin 3, xr k * xc k

/-- The squared distance from the squared norms and the inner product. -/
def r2 (xr xc : Fin 3 → EReal) (sr sc : EReal) : EReal :=
  (sr + sc) - Ideal.ofBits .f32 0x40000000#32 * gram xr xc

/-- The distance of a pair: of a counting pair the root of the clamped squared distance, of any other the root of one. -/
def dist0 (xr xc : Fin 3 → EReal) (sr sc : EReal) (b : BitVec 1) : EReal :=
  Ideal.sqrt (Scalar.select b (max (r2 xr xc sr sc) (Ideal.ofBits .f32 0x00000000#32)) (Ideal.ofBits .f32 0x3F800000#32))

/-- The pair is a neighbour: it counts and its distance is at most one. -/
def inc (xr xc : Fin 3 → EReal) (sr sc : EReal) (b : BitVec 1) : BitVec 1 :=
  IntOp.andi b (Ideal.cmp .ole (dist0 xr xc sr sc b) (Ideal.ofBits .f32 0x3F800000#32))

/-- The distance written out: a neighbour's distance, zero elsewhere. -/
def distOut (xr xc : Fin 3 → EReal) (sr sc : EReal) (b : BitVec 1) : EReal :=
  Scalar.select (inc xr xc sr sc b) (dist0 xr xc sr sc b) (Ideal.ofBits .f32 0x00000000#32)

/-! ## The arrays -/

/-- Point r of the array of points. -/
def pt (x : (⟨2, ![8192, 3]⟩ : Shape).Idx → EReal) (r : Fin 8192) : Fin 3 → EReal := fun k => x (ix2 r k)

/-- Whether the pair (r, c) counts, from the identifiers. -/
def pmAt (ids : (⟨1, ![8192]⟩ : Shape).Idx → BitVec 32) (r c : Fin 8192) : BitVec 1 :=
  pm (ids (ix1 r)) (ids (ix1 c)) (BitVec.ofNat 32 r.val) (BitVec.ofNat 32 c.val)

/-- The distance written out for the pair (r, c). -/
def distAt (x : (⟨2, ![8192, 3]⟩ : Shape).Idx → EReal) (sq : (⟨1, ![8192]⟩ : Shape).Idx → EReal)
    (ids : (⟨1, ![8192]⟩ : Shape).Idx → BitVec 32) (r c : Fin 8192) : EReal :=
  distOut (pt x r) (pt x c) (sq (ix1 r)) (sq (ix1 c)) (pmAt ids r c)

/-- Whether the pair (r, c) is a neighbour. -/
def maskAt (x : (⟨2, ![8192, 3]⟩ : Shape).Idx → EReal) (sq : (⟨1, ![8192]⟩ : Shape).Idx → EReal)
    (ids : (⟨1, ![8192]⟩ : Shape).Idx → BitVec 32) (r c : Fin 8192) : BitVec 1 :=
  inc (pt x r) (pt x c) (sq (ix1 r)) (sq (ix1 c)) (pmAt ids r c)

/-- The square array of distances written out. -/
def G_dist (x : (⟨2, ![8192, 3]⟩ : Shape).Idx → EReal) (sq : (⟨1, ![8192]⟩ : Shape).Idx → EReal)
    (ids : (⟨1, ![8192]⟩ : Shape).Idx → BitVec 32) : (⟨2, ![8192, 8192]⟩ : Shape).Idx → EReal :=
  fun j => distAt x sq ids (j 0) (j 1)

/-- The square array of neighbour bits. -/
def G_mask (x : (⟨2, ![8192, 3]⟩ : Shape).Idx → EReal) (sq : (⟨1, ![8192]⟩ : Shape).Idx → EReal)
    (ids : (⟨1, ![8192]⟩ : Shape).Idx → BitVec 32) : (⟨2, ![8192, 8192]⟩ : Shape).Idx → BitVec 1 :=
  fun j => maskAt x sq ids (j 0) (j 1)

/-- The row number of each cell, as a 32-bit word. -/
def G_row : (⟨2, ![8192, 8192]⟩ : Shape).Idx → BitVec 32 := fun j => BitVec.ofNat 32 (j 0).val

/-- The column number of each cell, as a 32-bit word. -/
def G_col : (⟨2, ![8192, 8192]⟩ : Shape).Idx → BitVec 32 := fun j => BitVec.ofNat 32 (j 1).val

theorem G_dist_ix2 (x : (⟨2, ![8192, 3]⟩ : Shape).Idx → EReal) (sq : (⟨1, ![8192]⟩ : Shape).Idx → EReal)
    (ids : (⟨1, ![8192]⟩ : Shape).Idx → BitVec 32) (r c : Fin 8192) :
    G_dist x sq ids (ix2 r c) = distAt x sq ids r c := rfl

theorem G_mask_ix2 (x : (⟨2, ![8192, 3]⟩ : Shape).Idx → EReal) (sq : (⟨1, ![8192]⟩ : Shape).Idx → EReal)
    (ids : (⟨1, ![8192]⟩ : Shape).Idx → BitVec 32) (r c : Fin 8192) :
    G_mask x sq ids (ix2 r c) = maskAt x sq ids r c := rfl

theorem G_row_ix2 (r c : Fin 8192) : G_row (ix2 r c) = BitVec.ofNat 32 r.val := rfl

theorem G_col_ix2 (r c : Fin 8192) : G_col (ix2 r c) = BitVec.ofNat 32 c.val := rfl

end Cert.Nbr

end
-- ==== Proof.LibMatmulRowsByRows.lean ====
/-
  A product of two matrices that share their SECOND axis, read at an entry.

  For `lhs : [n, K]` and `rhs : [d, K]`, contracted over the second axis of both (the product of `lhs`
  with the transpose of `rhs`), accumulated into the all-zero matrix: at the ideal instance entry `(r, c)`
  of the result is the sum over `k` of `lhs[r, k] · rhs[c, k]`.  Any sizes, any operand formats, any
  precision.  The four hypotheses name the coordinates of the two operand indices at an output index and
  a contraction index; for a printed dimension record two of them come from unfolding the index maps and
  two from the library's facts about a single contracted axis.
-/
import Idealize.ShloMosaic.PureOps.Ideal.Laws
import Idealize.ShloMosaic.Lib.ValueIdx

noncomputable section

namespace Cert.Lib.RowsByRows

open Idealize.ShloMosaic Idealize.ShloMosaic.ValueIdx

/-- `lhs · rhsᵀ` into the zero accumulator at entry `(r, c)`: the sum over the shared axis of the
    products of row `r` of `lhs` with row `c` of `rhs`. -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.RowsByRows

end
-- ==== Proof.LibMosaicRows.lean ====
/-
  Four readings of a kernel's row-wise vector operations at one entry, at the ideal instance, for any sizes.

  * col_repeated: a one-column matrix [a, 1] broadcast to [a, b] reads, at (p, c), the column's entry p — a row's
    maximum or sum, or a per-row scale, spread over the row.
  * rowSum_at: the sum reduction of a matrix [a, b] over its columns, from the zero word, reads at row p the sum over
    the b columns of the row's entries.
  * rowMax_at: the maximum reduction over the columns, from the word of -∞, reads at row p the fold of max from that
    word's value over the row's entries.
  * exp_at: the exponential of a vector reads, at an index, the exponential of the entry.
-/
import Idealize.ShloMosaic.PureOps.Ideal.Laws
import Idealize.ShloMosaic.Lib.ValueIdx
import Idealize.ShloMosaic.Lib.Pipeline.Value

noncomputable section

namespace Cert.Lib.MosaicRows

open Idealize.ShloMosaic Idealize.ShloMosaic.ValueIdx

/-- A one-column matrix broadcast across b columns reads, at (p, c), the column's entry p. -/
theorem col_repeated {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with column k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- The sum over the columns, from the zero word, at row p: the sum of the row's entries. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The maximum over the columns, from the word of -∞, at row p: the fold of max from -∞ over the row's entries. -/
theorem rowMax_at {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max (Ideal.ofBits .f32 0xFF800000#32) f (Finset.univ : Finset (Fin b))) hf

/-- The exponential of a vector at an index is the exponential of the entry. -/
theorem exp_at {s : Shape} (v : FVec Ideal s .f32) (i : s.Idx) : exp v i = Ideal.exp (v i) := rfl

end Cert.Lib.MosaicRows

end
-- ==== Proof.KernelCell.lean ====
/-
  One cell of one block of the kernel's arithmetic, at the ideal values.

  At grid point (i0, i1) the block has 1024 rows and 512 columns; its cell (p, q) is the pair of points
  number i0 * 1024 + p and i1 * 512 + q. Each vector the body computes is read here at that cell from the
  entries of the loaded blocks it depends on: row p of the first block of points, row q of the second,
  entry p of the column of squared norms and of identifiers, entry q of the row of squared norms and of
  identifiers. The matrix product into the zero matrix is the inner product of the two points; every other
  operation acts entry by entry, so the cell is the specification's cell function of those entries.
-/
import proofs.«169215_j6657199309587_2_alg».proof.Proof.Gen.KernelIdeal.Skeleton
import proofs.«169215_j6657199309587_2_alg».proof.Proof.Spec
import proofs.«169215_j6657199309587_2_alg».proof.Proof.LibMatmulRowsByRows
import proofs.«169215_j6657199309587_2_alg».proof.Proof.LibMosaicRows
import Idealize.ShloMosaic.Lib.ValueLayout
import Idealize.ShloMosaic.Lib.Pipeline.Value

noncomputable section

open scoped BigOperators

namespace Cert.KernelIdeal.Cell

open Cert.KernelIdeal Cert.KernelIdeal.Gen Idealize.ShloMosaic Idealize.ShloMosaic.ValueIdx

/-! ## Row and column numbers -/

/-- The row number of cell (p, q) of the block at grid point i. -/
theorem pay5_at (i : grid0.Coords) (p : Fin 1024) (q : Fin 512) :
    Gen.k0_pay5 i (ix2 p q) = BitVec.ofNat 32 ((i 0).val * 1024 + p.val) := by
  unfold Gen.k0_pay5
  show IntOp.addi (IntOp.muli (BitVec.ofNat 32 (i 0).val) 1024#32)
      (iota .tc S1024x512 32 [0] iota_S1024x512_d0_w32 (ix2 p q)) = _
  rw [iota_single_apply, BitVec.ofNat_add, BitVec.ofNat_mul]
  rfl

/-- The column number of cell (p, q) of the block at grid point i. -/
theorem pay6_at (i : grid0.Coords) (p : Fin 1024) (q : Fin 512) :
    Gen.k0_pay6 i (ix2 p q) = BitVec.ofNat 32 ((i 1).val * 512 + q.val) := by
  unfold Gen.k0_pay6
  show IntOp.addi (IntOp.muli (BitVec.ofNat 32 (i 1).val) 512#32)
      (iota .tc S1024x512 32 [1] iota_S1024x512_d1_w32 (ix2 p q)) = _
  rw [iota_single_apply, BitVec.ofNat_add, BitVec.ofNat_mul]
  rfl

/-! ## The loaded columns and rows spread over the block -/

/-- A column of 1024 entries, recast to its own shape and spread over 512 columns, reads its entry p. -/
theorem col_at {α : Type} (v : S1024x1.Idx → α) (p : Fin 1024) (q : Fin 512) :
    broadcastTo S1024x512 (shapeCast S1024x1 v shapeCasts_S1024x1_S1024x1) broadcasts_S1024x1_S1024x512 (ix2 p q)
      = v (ix2 p (0 : Fin 1)) := by
  rw [shapeCast_self]
  exact Cert.Lib.MosaicRows.col_repeated v broadcasts_S1024x1_S1024x512 p q

/-- A row of 512 entries, recast to its own shape and spread over 1024 rows, reads its entry q. -/
theorem row_at {α : Type} (v : S1x512.Idx → α) (p : Fin 1024) (q : Fin 512) :
    broadcastTo S1024x512 (shapeCast S1x512 v shapeCasts_S1x512_S1x512) broadcasts_S1x512_S1024x512 (ix2 p q)
      = v (ix2 (0 : Fin 1) q) := by
  rw [shapeCast_self]
  exact broadcastTo_1b_ab_apply v broadcasts_S1x512_S1024x512 p q

/-! ## The inner product -/

/-- The product of the two blocks of points into the zero matrix, at (p, q): the inner product of row p of the first
    with row q of the second. -/
theorem gram_at (v0 : FVec Ideal S1024x3 .f32) (v1 : FVec Ideal S512x3 .f32) (p : Fin 1024) (q : Fin 512) :
    matmul (φ₁ := .f32) (φ₂ := .f32) dot_S1024x3_S512x3_S1024x512_1_1_0_0_n_n none v0 v1 (constant (F := Ideal) S1024x512 .f32 0x00000000#32) (ix2 p q)
      = ∑ k : Fin 3, v0 (ix2 p k) * v1 (ix2 q k) :=
  Cert.Lib.RowsByRows.matmul_zero_at dot_S1024x3_S512x3_S1024x512_1_1_0_0_n_n rfl rfl
    (fun j c => by
      unfold DotDims.lhsIdx
      rw [dif_neg (show ¬(0 : Fin S1024x3.rank) ∈ dot_S1024x3_S512x3_S1024x512_1_1_0_0_n_n.lhsBatch by decide),
        dif_pos (show (0 : Fin S1024x3.rank) ∈ dot_S1024x3_S512x3_S1024x512_1_1_0_0_n_n.lhsNonContracting by decide)]
      rfl)
    (fun j c => dot_S1024x3_S512x3_S1024x512_1_1_0_0_n_n.lhsIdx_val_of_single rfl j c)
    (fun j c => by
      unfold DotDims.rhsIdx
      rw [dif_neg (show ¬(0 : Fin S512x3.rank) ∈ dot_S1024x3_S512x3_S1024x512_1_1_0_0_n_n.rhsBatch by decide),
        dif_pos (show (0 : Fin S512x3.rank) ∈ dot_S1024x3_S512x3_S1024x512_1_1_0_0_n_n.rhsNonContracting by decide)]
      rfl)
    (fun j c => dot_S1024x3_S512x3_S1024x512_1_1_0_0_n_n.rhsIdx_val_of_single rfl j c)
    none v0 v1 p q

/-! ## The cell -/

/-- Whether the pair of cell (p, q) counts. -/
theorem pay7_at (i : grid0.Coords) (v13 : Vec Ideal S1024x1 .i32) (v15 : Vec Ideal S1x512 .i32) (p : Fin 1024) (q : Fin 512) :
    Gen.k0_pay7 (F := Ideal) i v13 v15 (ix2 p q)
      = Cert.Nbr.pm (v13 (ix2 p (0 : Fin 1))) (v15 (ix2 (0 : Fin 1) q))
          (BitVec.ofNat 32 ((i 0).val * 1024 + p.val)) (BitVec.ofNat 32 ((i 1).val * 512 + q.val)) := by
  unfold Gen.k0_pay7
  show IntOp.andi
      (IntOp.cmpi .eq
        (broadcastTo S1024x512 (shapeCast S1024x1 v13 shapeCasts_S1024x1_S1024x1) broadcasts_S1024x1_S1024x512 (ix2 p q))
        (broadcastTo S1024x512 (shapeCast S1x512 v15 shapeCasts_S1x512_S1x512) broadcasts_S1x512_S1024x512 (ix2 p q)))
      (IntOp.cmpi .ne (Gen.k0_pay5 i (ix2 p q)) (Gen.k0_pay6 i (ix2 p q))) = _
  rw [col_at, row_at, pay5_at, pay6_at]
  rfl

/-- The distance of the pair of cell (p, q). -/
theorem pay8_at (i : grid0.Coords) (v0 : Vec Ideal S1024x3 .f32) (v1 : Vec Ideal S512x3 .f32)
    (v3 : Vec Ideal S1024x1 .f32) (v5 : Vec Ideal S1x512 .f32) (v13 : Vec Ideal S1024x1 .i32) (v15 : Vec Ideal S1x512 .i32)
    (p : Fin 1024) (q : Fin 512) :
    Gen.k0_pay8 (F := Ideal) i v0 v1 v3 v5 v13 v15 (ix2 p q)
      = Cert.Nbr.dist0 (fun k => v0 (ix2 p k)) (fun k => v1 (ix2 q k)) (v3 (ix2 p (0 : Fin 1))) (v5 (ix2 (0 : Fin 1) q))
          (Cert.Nbr.pm (v13 (ix2 p (0 : Fin 1))) (v15 (ix2 (0 : Fin 1) q))
            (BitVec.ofNat 32 ((i 0).val * 1024 + p.val)) (BitVec.ofNat 32 ((i 1).val * 512 + q.val))) := by
  unfold Gen.k0_pay8
  show Ideal.sqrt (Scalar.select (Gen.k0_pay7 (F := Ideal) i v13 v15 (ix2 p q))
      (max
        ((broadcastTo S1024x512 (shapeCast S1024x1 v3 shapeCasts_S1024x1_S1024x1) broadcasts_S1024x1_S1024x512 (ix2 p q)
            + broadcastTo S1024x512 (shapeCast S1x512 v5 shapeCasts_S1x512_S1x512) broadcasts_S1x512_S1024x512 (ix2 p q))
          - Ideal.ofBits .f32 0x40000000#32
            * matmul dot_S1024x3_S512x3_S1024x512_1_1_0_0_n_n none v0 v1 (constant (F := Ideal) S1024x512 .f32 0x00000000#32) (ix2 p q))
        (Ideal.ofBits .f32 0x00000000#32))
      (Ideal.ofBits .f32 0x3F800000#32)) = _
  rw [col_at, row_at, gram_at, pay7_at]
  rfl

/-- Whether the pair of cell (p, q) is a neighbour. -/
theorem pay9_at (i : grid0.Coords) (v0 : Vec Ideal S1024x3 .f32) (v1 : Vec Ideal S512x3 .f32)
    (v3 : Vec Ideal S1024x1 .f32) (v5 : Vec Ideal S1x512 .f32) (v13 : Vec Ideal S1024x1 .i32) (v15 : Vec Ideal S1x512 .i32)
    (p : Fin 1024) (q : Fin 512) :
    Gen.k0_pay9 (F := Ideal) i v0 v1 v3 v5 v13 v15 (ix2 p q)
      = Cert.Nbr.inc (fun k => v0 (ix2 p k)) (fun k => v1 (ix2 q k)) (v3 (ix2 p (0 : Fin 1))) (v5 (ix2 (0 : Fin 1) q))
          (Cert.Nbr.pm (v13 (ix2 p (0 : Fin 1))) (v15 (ix2 (0 : Fin 1) q))
            (BitVec.ofNat 32 ((i 0).val * 1024 + p.val)) (BitVec.ofNat 32 ((i 1).val * 512 + q.val))) := by
  unfold Gen.k0_pay9
  show IntOp.andi (Gen.k0_pay7 (F := Ideal) i v13 v15 (ix2 p q))
      (Ideal.cmp .ole (Gen.k0_pay8 (F := Ideal) i v0 v1 v3 v5 v13 v15 (ix2 p q)) (Ideal.ofBits .f32 0x3F800000#32)) = _
  rw [pay7_at, pay8_at]
  rfl

/-- The distance written out at cell (p, q). -/
theorem pay1_at (i : grid0.Coords) (v0 : Vec Ideal S1024x3 .f32) (v1 : Vec Ideal S512x3 .f32)
    (v3 : Vec Ideal S1024x1 .f32) (v5 : Vec Ideal S1x512 .f32) (v13 : Vec Ideal S1024x1 .i32) (v15 : Vec Ideal S1x512 .i32)
    (p : Fin 1024) (q : Fin 512) :
    Gen.k0_pay1 (F := Ideal) (Gen.k0_pay8 (F := Ideal) i v0 v1 v3 v5 v13 v15) (Gen.k0_pay9 (F := Ideal) i v0 v1 v3 v5 v13 v15)
        (Scalar.ofBits .f32 0x00000000#32) (ix2 p q)
      = Cert.Nbr.distOut (fun k => v0 (ix2 p k)) (fun k => v1 (ix2 q k)) (v3 (ix2 p (0 : Fin 1))) (v5 (ix2 (0 : Fin 1) q))
          (Cert.Nbr.pm (v13 (ix2 p (0 : Fin 1))) (v15 (ix2 (0 : Fin 1) q))
            (BitVec.ofNat 32 ((i 0).val * 1024 + p.val)) (BitVec.ofNat 32 ((i 1).val * 512 + q.val))) := by
  unfold Gen.k0_pay1
  show Scalar.select (Gen.k0_pay9 (F := Ideal) i v0 v1 v3 v5 v13 v15 (ix2 p q))
      (Gen.k0_pay8 (F := Ideal) i v0 v1 v3 v5 v13 v15 (ix2 p q)) (Ideal.ofBits .f32 0x00000000#32) = _
  rw [pay9_at, pay8_at]
  rfl

/-- The neighbour bit written out at cell (p, q), widened to 32 bits. -/
theorem pay2_at (i : grid0.Coords) (v0 : Vec Ideal S1024x3 .f32) (v1 : Vec Ideal S512x3 .f32)
    (v3 : Vec Ideal S1024x1 .f32) (v5 : Vec Ideal S1x512 .f32) (v13 : Vec Ideal S1024x1 .i32) (v15 : Vec Ideal S1x512 .i32)
    (p : Fin 1024) (q : Fin 512) :
    Gen.k0_pay2 (Gen.k0_pay9 (F := Ideal) i v0 v1 v3 v5 v13 v15) (ix2 p q)
      = (Cert.Nbr.inc (fun k => v0 (ix2 p k)) (fun k => v1 (ix2 q k)) (v3 (ix2 p (0 : Fin 1))) (v5 (ix2 (0 : Fin 1) q))
          (Cert.Nbr.pm (v13 (ix2 p (0 : Fin 1))) (v15 (ix2 (0 : Fin 1) q))
            (BitVec.ofNat 32 ((i 0).val * 1024 + p.val)) (BitVec.ofNat 32 ((i 1).val * 512 + q.val)))).setWidth 32 := by
  unfold Gen.k0_pay2
  show (Gen.k0_pay9 (F := Ideal) i v0 v1 v3 v5 v13 v15 (ix2 p q)).setWidth 32 = _
  rw [pay9_at]

/-- The block of row numbers stored with a leading unit axis reads, at (u, p, q), the block at (p, q). -/
theorem pay3_at (v20 : IVec S1024x512 32) (u : Fin 1) (p : Fin 1024) (q : Fin 512) :
    Gen.k0_pay3 v20 (ix3 u p q) = v20 (ix2 p q) := by
  unfold Gen.k0_pay3
  exact shapeCast_ab_1ab_apply v20 shapeCasts_S1024x512_S1x1024x512 u p q

/-- The block of column numbers stored with a leading unit axis reads, at (u, p, q), the block at (p, q). -/
theorem pay4_at (v24 : IVec S1024x512 32) (u : Fin 1) (p : Fin 1024) (q : Fin 512) :
    Gen.k0_pay4 v24 (ix3 u p q) = v24 (ix2 p q) := by
  unfold Gen.k0_pay4
  exact shapeCast_ab_1ab_apply v24 shapeCasts_S1024x512_S1x1024x512 u p q

end Cert.KernelIdeal.Cell

end
-- ==== Proof.TilesToArrays.lean ====
/-
  From tiles to whole arrays. Grid point (a, b) of the 8 × 16 grid writes back the tile of rows a·1024 … a·1024+1023
  and columns b·512 … b·512+511 of each result; the tiles cover the results, so each result array ends as ONE function
  of the arrays the launch found: entry (r, c) of the distances is the cell function of points r and c, their squared
  norms and identifiers, and of the numbers r and c themselves.
-/
import proofs.«169215_j6657199309587_2_alg».proof.Proof.WholeRun
import proofs.«169215_j6657199309587_2_alg».proof.Proof.KernelCell
import proofs.«169215_j6657199309587_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: every window's block index is the grid coordinate on the axes it
    follows and zero on the others. -/
theorem idx_facts : ∀ t : Fin cfg0.N,
    win0_0.index t (0 : Fin 2) = (grid0.coords t 0).val ∧ win0_0.index t (1 : Fin 2) = 0
  ∧ win0_1.index t (0 : Fin 2) = (grid0.coords t 1).val ∧ win0_1.index t (1 : Fin 2) = 0
  ∧ win0_2.index t (0 : Fin 2) = (grid0.coords t 0).val ∧ win0_2.index t (1 : Fin 2) = 0
  ∧ win0_3.index t (0 : Fin 2) = 0 ∧ win0_3.index t (1 : Fin 2) = (grid0.coords t 1).val
  ∧ win0_4.index t (0 : Fin 2) = (grid0.coords t 0).val ∧ win0_4.index t (1 : Fin 2) = 0
  ∧ win0_5.index t (0 : Fin 2) = 0 ∧ win0_5.index t (1 : Fin 2) = (grid0.coords t 1).val
  ∧ win0_6.index t (0 : Fin 2) = (grid0.coords t 0).val ∧ win0_6.index t (1 : Fin 2) = (grid0.coords t 1).val
  ∧ win0_7.index t (0 : Fin 2) = (grid0.coords t 0).val ∧ win0_7.index t (1 : Fin 2) = (grid0.coords t 1).val
  ∧ win0_8.index t (0 : Fin 3) = 0 ∧ win0_8.index t (1 : Fin 3) = (grid0.coords t 0).val ∧ win0_8.index t (2 : Fin 3) = (grid0.coords t 1).val
  ∧ (grid0.coords t 0).val < 8 ∧ (grid0.coords t 1).val < 16 :=
  (by decide +kernel : ∀ t : Fin grid0.N, _)

/-- Every pair of block coordinates is some grid point's. -/
theorem idx_onto : ∀ (a : Fin 8) (b : Fin 16), ∃ t : Fin cfg0.N, (grid0.coords t 0).val = a.val ∧ (grid0.coords t 1).val = b.val :=
  (by decide +kernel : ∀ (a : Fin 8) (b : Fin 16), ∃ t : Fin grid0.N, (grid0.coords t 0).val = a.val ∧ (grid0.coords t 1).val = b.val)

/-! ## Each input tile read where the result tile's entry says -/

theorem in0_at (c : Dev nD) (t : Fin cfg0.N) (p : Fin 1024) (k : Fin 3) (R : Fin 8192) (hR : R.val = (grid0.coords t 0).val * 1024 + p.val) :
    iblk V c 0 t (ix2 p k) = V c main_arg0 (ix2 R k) := by
  obtain ⟨e0, e1, -⟩ := idx_facts t
  show V c main_arg0 (((cfg0.win 0).blk t).view.emb (ix2 p k)) = V c main_arg0 (ix2 R k)
  refine congrArg (V c main_arg0) (funext fun a => Fin.ext ?_)
  match a with
  | ⟨0, _⟩ => show win0_0.index t (0 : Fin 2) * 1024 + 1 * p.val = R.val; omega
  | ⟨1, _⟩ => show win0_0.index t (1 : Fin 2) * 3 + 1 * k.val = k.val; omega

theorem in1_at (c : Dev nD) (t : Fin cfg0.N) (q : Fin 512) (k : Fin 3) (C : Fin 8192) (hC : C.val = (grid0.coords t 1).val * 512 + q.val) :
    iblk V c 1 t (ix2 q k) = V c main_arg0 (ix2 C k) := by
  obtain ⟨-, -, e0, e1, -⟩ := idx_facts t
  show V c main_arg0 (((cfg0.win 1).blk t).view.emb (ix2 q k)) = V c main_arg0 (ix2 C k)
  refine congrArg (V c main_arg0) (funext fun a => Fin.ext ?_)
  match a with
  | ⟨0, _⟩ => show win0_1.index t (0 : Fin 2) * 512 + 1 * q.val = C.val; omega
  | ⟨1, _⟩ => show win0_1.index t (1 : Fin 2) * 3 + 1 * k.val = k.val; omega

theorem in2_at (c : Dev nD) (t : Fin cfg0.N) (p : Fin 1024) (R : Fin 8192) (hR : R.val = (grid0.coords t 0).val * 1024 + p.val) :
    iblk V c 2 t (ix2 p (0 : Fin 1)) = V c main_v0 (ix2 R (0 : Fin 1)) := by
  obtain ⟨-, -, -, -, e0, e1, -⟩ := idx_facts t
  show V c main_v0 (((cfg0.win 2).blk t).view.emb (ix2 p (0 : Fin 1))) = V c main_v0 (ix2 R (0 : Fin 1))
  refine congrArg (V c main_v0) (funext fun a => Fin.ext ?_)
  match a with
  | ⟨0, _⟩ => show win0_2.index t (0 : Fin 2) * 1024 + 1 * p.val = R.val; omega
  | ⟨1, _⟩ => show win0_2.index t (1 : Fin 2) * 1 + 1 * (0 : Fin 1).val = (0 : Fin 1).val; omega

theorem in3_at (c : Dev nD) (t : Fin cfg0.N) (q : Fin 512) (C : Fin 8192) (hC : C.val = (grid0.coords t 1).val * 512 + q.val) :
    iblk V c 3 t (ix2 (0 : Fin 1) q) = V c main_v1 (ix2 (0 : Fin 1) C) := by
  obtain ⟨-, -, -, -, -, -, e0, e1, -⟩ := idx_facts t
  show V c main_v1 (((cfg0.win 3).blk t).view.emb (ix2 (0 : Fin 1) q)) = V c main_v1 (ix2 (0 : Fin 1) C)
  refine congrArg (V c main_v1) (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 512 + 1 * q.val = C.val; omega

theorem in4_at (c : Dev nD) (t : Fin cfg0.N) (p : Fin 1024) (R : Fin 8192) (hR : R.val = (grid0.coords t 0).val * 1024 + p.val) :
    iblk V c 4 t (ix2 p (0 : Fin 1)) = V c main_v4 (ix2 R (0 : Fin 1)) := by
  obtain ⟨-, -, -, -, -, -, -, -, e0, e1, -⟩ := idx_facts t
  show V c main_v4 (((cfg0.win 4).blk t).view.emb (ix2 p (0 : Fin 1))) = V c main_v4 (ix2 R (0 : Fin 1))
  refine congrArg (V c main_v4) (funext fun a => Fin.ext ?_)
  match a with
  | ⟨0, _⟩ => show win0_4.index t (0 : Fin 2) * 1024 + 1 * p.val = R.val; omega
  | ⟨1, _⟩ => show win0_4.index t (1 : Fin 2) * 1 + 1 * (0 : Fin 1).val = (0 : Fin 1).val; omega

theorem in5_at (c : Dev nD) (t : Fin cfg0.N) (q : Fin 512) (C : Fin 8192) (hC : C.val = (grid0.coords t 1).val * 512 + q.val) :
    iblk V c 5 t (ix2 (0 : Fin 1) q) = V c main_v5 (ix2 (0 : Fin 1) C) := by
  obtain ⟨-, -, -, -, -, -, -, -, -, -, e0, e1, -⟩ := idx_facts t
  show V c main_v5 (((cfg0.win 5).blk t).view.emb (ix2 (0 : Fin 1) q)) = V c main_v5 (ix2 (0 : Fin 1) C)
  refine congrArg (V c main_v5) (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 512 + 1 * q.val = C.val; omega

/-! ## The result arrays as functions of the arrays the launch finds -/

/-- Whether pair (r, c) counts, from the identifiers as the launch finds them (a column and a row). -/
def pmOf (c : Dev nD) (r q : Fin 8192) : BitVec 1 :=
  Cert.Nbr.pm (V c main_v0 (ix2 r (0 : Fin 1))) (V c main_v1 (ix2 (0 : Fin 1) q)) (BitVec.ofNat 32 r.val) (BitVec.ofNat 32 q.val)

/-- The distances written out. -/
def distOf (c : Dev nD) : S8192x8192.Idx → EReal := fun j =>
  Cert.Nbr.distOut (fun k => V c main_arg0 (ix2 (j 0) k)) (fun k => V c main_arg0 (ix2 (j 1) k))
    (V c main_v4 (ix2 (j 0) (0 : Fin 1))) (V c main_v5 (ix2 (0 : Fin 1) (j 1))) (pmOf V c (j 0) (j 1))

/-- The neighbour bits, widened to words. -/
def maskOf (c : Dev nD) : S8192x8192.Idx → BitVec 32 := fun j =>
  (Cert.Nbr.inc (fun k => V c main_arg0 (ix2 (j 0) k)) (fun k => V c main_arg0 (ix2 (j 1) k))
    (V c main_v4 (ix2 (j 0) (0 : Fin 1))) (V c main_v5 (ix2 (0 : Fin 1) (j 1))) (pmOf V c (j 0) (j 1))).setWidth 32

/-- The tile's entry (p, q) at grid point t sits at row a·1024 + p, column b·512 + q of the array. -/
theorem emb6 (t : Fin cfg0.N) (p : Fin 1024) (q : Fin 512) (R C : Fin 8192)
    (hR : R.val = (grid0.coords t 0).val * 1024 + p.val) (hC : C.val = (grid0.coords t 1).val * 512 + q.val) :
    ((cfg0.win 6).blk t).view.emb (ix2 p q) = ix2 R C := by
  obtain ⟨-, -, -, -, -, -, -, -, -, -, -, -, e0, e1, -⟩ := idx_facts t
  funext a; apply Fin.ext
  match a with
  | ⟨0, _⟩ => show win0_6.index t (0 : Fin 2) * 1024 + 1 * p.val = R.val; omega
  | ⟨1, _⟩ => show win0_6.index t (1 : Fin 2) * 512 + 1 * q.val = C.val; omega

/-- WHAT POINT t WRITES BACK of the distances is tile t of `distOf`. -/
theorem flushed6_eq (c : Dev nD) (t : Fin cfg0.N) :
    (dat0 V c).flushed 6 t = ((cfg0.win 6).blk t).view.read (Elt Ideal) (distOf V c) := by
  show (cfg0.win 6).cut (grid0.coords t) ((dat0 V c).after 6 t) = _
  rw [after6]
  unfold distTile rootTile cutTile
  rw [View.canon_unit_zero hz2]
  simp only [View.ld_unit_zero (S := S1024x3) hz2, View.ld_unit_zero (S := S512x3) hz2, View.ld_unit_zero (S := S1024x1) hz2, View.ld_unit_zero (S := S1x512) hz2]
  funext j
  obtain ⟨p, q, rfl⟩ : ∃ (p : Fin 1024) (q : Fin 512), j = ix2 p q := ⟨j 0, j 1, eq_ix2 j⟩
  have h := idx_facts t
  have hRlt : (grid0.coords t 0).val * 1024 + p.val < 8192 := by have := p.isLt; omega
  have hClt : (grid0.coords t 1).val * 512 + q.val < 8192 := by have := q.isLt; omega
  refine (Cell.pay1_at (cfg0.grid.coords t) (iblk V c 0 t) (iblk V c 1 t) (iblk V c 4 t) (iblk V c 5 t) (iblk V c 2 t) (iblk V c 3 t) p q).trans ?_
  show _ = distOf V c (((cfg0.win 6).blk t).view.emb (ix2 p q))
  rw [emb6 t p q ⟨_, hRlt⟩ ⟨_, hClt⟩ rfl rfl]
  unfold distOf pmOf
  simp only [in0_at V c t p _ ⟨_, hRlt⟩ rfl, in1_at V c t q _ ⟨_, hClt⟩ rfl, in2_at V c t p ⟨_, hRlt⟩ rfl, in3_at V c t q ⟨_, hClt⟩ rfl,
    in4_at V c t p ⟨_, hRlt⟩ rfl, in5_at V c t q ⟨_, hClt⟩ rfl]

theorem emb7 (t : Fin cfg0.N) (p : Fin 1024) (q : Fin 512) (R C : Fin 8192)
    (hR : R.val = (grid0.coords t 0).val * 1024 + p.val) (hC : C.val = (grid0.coords t 1).val * 512 + q.val) :
    ((cfg0.win 7).blk t).view.emb (ix2 p q) = ix2 R C := by
  obtain ⟨-, -, -, -, -, -, -, -, -, -, -, -, -, -, e0, e1, -⟩ := idx_facts t
  funext a; apply Fin.ext
  match a with
  | ⟨0, _⟩ => show win0_7.index t (0 : Fin 2) * 1024 + 1 * p.val = R.val; omega
  | ⟨1, _⟩ => show win0_7.index t (1 : Fin 2) * 512 + 1 * q.val = C.val; omega

/-- WHAT POINT t WRITES BACK of the mask words is tile t of `maskOf`. -/
theorem flushed7_eq (c : Dev nD) (t : Fin cfg0.N) :
    (dat0 V c).flushed 7 t = ((cfg0.win 7).blk t).view.read (Elt Ideal) (maskOf V c) := by
  show (cfg0.win 7).cut (grid0.coords t) ((dat0 V c).after 7 t) = _
  rw [after7]
  unfold maskTile cutTile
  rw [View.canon_unit_zero hz2]
  simp only [View.ld_unit_zero (S := S1024x3) hz2, View.ld_unit_zero (S := S512x3) hz2, View.ld_unit_zero (S := S1024x1) hz2, View.ld_unit_zero (S := S1x512) hz2]
  funext j
  obtain ⟨p, q, rfl⟩ : ∃ (p : Fin 1024) (q : Fin 512), j = ix2 p q := ⟨j 0, j 1, eq_ix2 j⟩
  have h := idx_facts t
  have hRlt : (grid0.coords t 0).val * 1024 + p.val < 8192 := by have := p.isLt; omega
  have hClt : (grid0.coords t 1).val * 512 + q.val < 8192 := by have := q.isLt; omega
  refine (Cell.pay2_at (cfg0.grid.coords t) (iblk V c 0 t) (iblk V c 1 t) (iblk V c 4 t) (iblk V c 5 t) (iblk V c 2 t) (iblk V c 3 t) p q).trans ?_
  show _ = maskOf V c (((cfg0.win 7).blk t).view.emb (ix2 p q))
  rw [emb7 t p q ⟨_, hRlt⟩ ⟨_, hClt⟩ rfl rfl]
  unfold maskOf pmOf
  simp only [in0_at V c t p _ ⟨_, hRlt⟩ rfl, in1_at V c t q _ ⟨_, hClt⟩ rfl, in2_at V c t p ⟨_, hRlt⟩ rfl, in3_at V c t q ⟨_, hClt⟩ rfl,
    in4_at V c t p ⟨_, hRlt⟩ rfl, in5_at V c t q ⟨_, hClt⟩ rfl]

/-! ## The index planes -/

/-- Plane 0 holds each entry's row number, plane 1 its column number. -/
def pairOf : S2x8192x8192.Idx → BitVec 32 := fun j =>
  if (j 0).val = 0 then BitVec.ofNat 32 (j 1).val else BitVec.ofNat 32 (j 2).val

/-- The index tile at grid coordinates i, entry by entry. -/
def pairTileAt (i : grid0.Coords) : S2x1024x512.Idx → BitVec 32 := fun y =>
  if (y 0).val = 0 then BitVec.ofNat 32 ((i 0).val * 1024 + (y 1).val) else BitVec.ofNat 32 ((i 1).val * 512 + (y 2).val)

theorem pairTile_eq (i : grid0.Coords) : pairTile (F := Ideal) i = pairTileAt i := by
  funext y
  unfold pairTile
  refine View.canon_apply_of_pieces (Val := Elt Ideal) (pairTileAt i) _ ?_ y (cover_planes (F := Ideal) _ _ y)
  intro pc hpc
  rcases List.mem_cons.mp hpc with rfl | hpc
  · intro (x : S1x1024x512.Idx)
    obtain ⟨u, p, q, rfl⟩ : ∃ (u : Fin 1) (p : Fin 1024) (q : Fin 512), x = ix3 u p q := ⟨x 0, x 1, x 2, eq_ix3 x⟩
    have hu : u.val = 0 := by have := u.isLt; omega
    show k0_pay4 (k0_pay6 i) (ix3 u p q) = pairTileAt i (rPlane1.emb (ix3 u p q))
    rw [Cell.pay4_at, Cell.pay6_at]
    have e0 : ((rPlane1.emb (ix3 u p q)) 0).val = 1 := by show 1 + 1 * u.val = 1; omega
    have e2 : ((rPlane1.emb (ix3 u p q)) 2).val = q.val := by show 0 + 1 * q.val = q.val; omega
    unfold pairTileAt
    rw [if_neg (by rw [e0]; decide), e2]
  · rcases List.mem_cons.mp hpc with rfl | hpc
    · intro (x : S1x1024x512.Idx)
      obtain ⟨u, p, q, rfl⟩ : ∃ (u : Fin 1) (p : Fin 1024) (q : Fin 512), x = ix3 u p q := ⟨x 0, x 1, x 2, eq_ix3 x⟩
      have hu : u.val = 0 := by have := u.isLt; omega
      show k0_pay3 (k0_pay5 i) (ix3 u p q) = pairTileAt i (rPlane0.emb (ix3 u p q))
      rw [Cell.pay3_at, Cell.pay5_at]
      have e0 : ((rPlane0.emb (ix3 u p q)) 0).val = 0 := by show 0 + 1 * u.val = 0; omega
      have e1 : ((rPlane0.emb (ix3 u p q)) 1).val = p.val := by show 0 + 1 * p.val = p.val; omega
      unfold pairTileAt
      rw [if_pos e0, e1]
    · exact absurd hpc List.not_mem_nil

/-- WHAT POINT t WRITES BACK of the index planes is tile t of `pairOf`. -/
theorem flushed8_eq (c : Dev nD) (t : Fin cfg0.N) :
    (dat0 V c).flushed 8 t = ((cfg0.win 8).blk t).view.read (Elt Ideal) pairOf := by
  show (cfg0.win 8).cut (grid0.coords t) ((dat0 V c).after 8 t) = _
  rw [after8, pairTile_eq]
  obtain ⟨-, -, -, -, -, -, -, -, -, -, -, -, -, -, -, -, e0, e1, e2, -⟩ := idx_facts t
  funext j
  show pairTileAt (cfg0.grid.coords t) j = pairOf (((cfg0.win 8).blk t).view.emb j)
  have h0 : ((((cfg0.win 8).blk t).view.emb j) 0).val = (j 0).val := by
    show win0_8.index t (0 : Fin 3) * 2 + 1 * (j 0).val = (j 0).val; omega
  have h1 : ((((cfg0.win 8).blk t).view.emb j) 1).val = (grid0.coords t 0).val * 1024 + (j 1).val := by
    show win0_8.index t (1 : Fin 3) * 1024 + 1 * (j 1).val = _; omega
  have h2 : ((((cfg0.win 8).blk t).view.emb j) 2).val = (grid0.coords t 1).val * 512 + (j 2).val := by
    show win0_8.index t (2 : Fin 3) * 512 + 1 * (j 2).val = _; omega
  unfold pairTileAt pairOf
  rw [h0, h1, h2]

/-! ## The tiles cover the arrays -/

theorem mem_blk6 (t : Fin cfg0.N) (i : S8192x8192.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v6_0).slice (win0_6.rect t)).set ↔ _
  rw [View.set_slice_whole, Rect.mem_set_unit]
  exact Iff.rfl
theorem mem_blk7 (t : Fin cfg0.N) (i : S8192x8192.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v6_1).slice (win0_7.rect t)).set ↔ _
  rw [View.set_slice_whole, Rect.mem_set_unit]
  exact Iff.rfl
theorem mem_blk8 (t : Fin cfg0.N) (i : S2x8192x8192.Idx) :
    i ∈ ((cfg0.win 8).blk t).view.set ↔ ∀ a : Fin 3, win0_8.index t a * S2x1024x512.size a ≤ (i a).val ∧ (i a).val < win0_8.index t a * S2x1024x512.size a + S2x1024x512.size a := by
  show i ∈ ((View.whole main_v6_2).slice (win0_8.rect t)).set ↔ _
  rw [View.set_slice_whole, Rect.mem_set_unit]
  exact Iff.rfl

theorem cover6 (i : S8192x8192.Idx) : ∃ t : Fin cfg0.N, (cfg0.win 6).flush t = true ∧ i ∈ ((cfg0.win 6).blk t).view.set := by
  have hi0 : (i 0).val < 8192 := (i 0).isLt
  have hi1 : (i 1).val < 8192 := (i 1).isLt
  obtain ⟨t, ht0, ht1⟩ := idx_onto ⟨(i 0).val / 1024, by omega⟩ ⟨(i 1).val / 512, by omega⟩
  obtain ⟨-, -, -, -, -, -, -, -, -, -, -, -, e0, e1, -⟩ := idx_facts t
  have ht0' : (grid0.coords t 0).val = (i 0).val / 1024 := ht0
  have ht1' : (grid0.coords t 1).val = (i 1).val / 512 := ht1
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

theorem cover7 (i : S8192x8192.Idx) : ∃ t : Fin cfg0.N, (cfg0.win 7).flush t = true ∧ i ∈ ((cfg0.win 7).blk t).view.set := by
  have hi0 : (i 0).val < 8192 := (i 0).isLt
  have hi1 : (i 1).val < 8192 := (i 1).isLt
  obtain ⟨t, ht0, ht1⟩ := idx_onto ⟨(i 0).val / 1024, by omega⟩ ⟨(i 1).val / 512, by omega⟩
  obtain ⟨-, -, -, -, -, -, -, -, -, -, -, -, -, -, e0, e1, -⟩ := idx_facts t
  have ht0' : (grid0.coords t 0).val = (i 0).val / 1024 := ht0
  have ht1' : (grid0.coords t 1).val = (i 1).val / 512 := ht1
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

theorem cover8 (i : S2x8192x8192.Idx) : ∃ t : Fin cfg0.N, (cfg0.win 8).flush t = true ∧ i ∈ ((cfg0.win 8).blk t).view.set := by
  have hi0 : (i 0).val < 2 := (i 0).isLt
  have hi1 : (i 1).val < 8192 := (i 1).isLt
  have hi2 : (i 2).val < 8192 := (i 2).isLt
  obtain ⟨t, ht0, ht1⟩ := idx_onto ⟨(i 1).val / 1024, by omega⟩ ⟨(i 2).val / 512, by omega⟩
  obtain ⟨-, -, -, -, -, -, -, -, -, -, -, -, -, -, -, -, e0, e1, e2, -⟩ := idx_facts t
  have ht0' : (grid0.coords t 0).val = (i 1).val / 1024 := ht0
  have ht1' : (grid0.coords t 1).val = (i 2).val / 512 := ht1
  refine ⟨t, flush0_8 t, ?_⟩
  rw [mem_blk8]
  intro a
  match a with
  | ⟨0, _⟩ => show win0_8.index t (0 : Fin 3) * 2 ≤ (i 0).val ∧ (i 0).val < win0_8.index t (0 : Fin 3) * 2 + 2; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 512 ≤ (i 2).val ∧ (i 2).val < win0_8.index t (2 : Fin 3) * 512 + 512; omega

/-! ## The arrays after the launch -/

theorem dist_final (c : Dev nD) : (dat0 V c).arrAt 6 cfg0.N = distOf V c :=
  (dat0 V c).arrAt_eq_of_cover 6 (distOf V c) (fun t _ => flushed6_eq V c t) cover6
theorem mask_final (c : Dev nD) : (dat0 V c).arrAt 7 cfg0.N = maskOf V c :=
  (dat0 V c).arrAt_eq_of_cover 7 (maskOf V c) (fun t _ => flushed7_eq V c t) cover7
theorem pair_final (c : Dev nD) : (dat0 V c).arrAt 8 cfg0.N = pairOf :=
  (dat0 V c).arrAt_eq_of_cover 8 pairOf (fun t _ => flushed8_eq V c t) cover8

end Cert.KernelIdeal.Hand

end
-- ==== Proof.HostLines.lean ====
/-
  The host lines before the launch, read at an entry.

  Before the launch the host recasts the identifiers as a column and as a row, forms the squared norms of the
  points (the sum over the three coordinates of x * x, from zero) and recasts them as a column and as a row.
  None of these lines writes an argument. Entry (r, 0) of a column and entry (0, q) of a row are entries r and q
  of the vector they recast.
-/
import proofs.«169215_j6657199309587_2_alg».proof.Proof.WholeRun
import Idealize.ShloMosaic.Lib.StableHlo.Run
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

/-- A vector of 8192 entries recast as a column reads, at (r, 0), its entry r. -/
theorem cast_col {α : Type} (x : S8192.Idx → α) (h : S8192.ShapeCasts S8192x1) (r : Fin 8192) :
    shapeCast S8192x1 x h (ix2 r (0 : Fin 1)) = x (ix1 r) :=
  shapeCast_apply x h (ix2 r (0 : Fin 1)) (ix1 r) (by
    rw [Shape.rowMajor_val_one, Shape.rowMajor_val_two]
    show r.val = r.val * 1 + 0
    omega)

/-- A vector of 8192 entries recast as a row reads, at (0, q), its entry q. -/
theorem cast_row {α : Type} (x : S8192.Idx → α) (h : S8192.ShapeCasts S1x8192) (q : Fin 8192) :
    shapeCast S1x8192 x h (ix2 (0 : Fin 1) q) = x (ix1 q) :=
  shapeCast_apply x h (ix2 (0 : Fin 1) q) (ix1 q) (by
    rw [Shape.rowMajor_val_one, Shape.rowMajor_val_two]
    show q.val = 0 * 8192 + q.val
    omega)

variable (m : (ℓ : Loc nD τ sig) → Buf (Elt Ideal) ℓ) (ρ : Dev nD → PrngReg) (c : Dev nD)

/-- The points as launched. -/
abbrev argX : S8192x3.Idx → EReal := m ((c : Thread nD τ).loc main_arg0)
/-- The identifiers as launched. -/
abbrev argIds : S8192.Idx → BitVec 32 := m ((c : Thread nD τ).loc main_arg1)

/-- The squared norms the host forms from the points as launched. -/
abbrev sqArr : S8192.Idx → EReal :=
  Host.reduceAdd (F := Ideal) (mulf (argX m c) (argX m c)) (constant (F := Ideal) S_ .f32 0x00000000#32)
    reducesTo_S8192x3_S8192_d1 h_S_

theorem W1_arg0 : (W1 m ρ c main_arg0 : S8192x3.Idx → EReal) = argX m c := by
  show StableHlo.after hostOps0 (W0 m ρ c) (Proc.devRef .tc main_arg0) = _
  after_results

theorem W1_arg1 : (W1 m ρ c main_arg1 : S8192.Idx → BitVec 32) = argIds m c := by
  show StableHlo.after hostOps0 (W0 m ρ c) (Proc.devRef .tc main_arg1) = _
  after_results

theorem W1_sq : (W1 m ρ c main_v3 : S8192.Idx → EReal) = sqArr m c := by
  show StableHlo.after hostOps0 (W0 m ρ c) (Proc.devRef .tc main_v3) = _
  after_results

theorem W1_ids_col (r : Fin 8192) :
    (W1 m ρ c main_v0 : S8192x1.Idx → BitVec 32) (ix2 r (0 : Fin 1)) = argIds m c (ix1 r) := by
  have e : (W1 m ρ c main_v0 : S8192x1.Idx → BitVec 32) = shapeCast S8192x1 (argIds m c) shapeCasts_S8192_S8192x1 := by
    show StableHlo.after hostOps0 (W0 m ρ c) (Proc.devRef .tc main_v0) = _
    after_results
    rfl
  rw [e]
  exact cast_col _ _ r

theorem W1_ids_row (q : Fin 8192) :
    (W1 m ρ c main_v1 : S1x8192.Idx → BitVec 32) (ix2 (0 : Fin 1) q) = argIds m c (ix1 q) := by
  have e : (W1 m ρ c main_v1 : S1x8192.Idx → BitVec 32) = shapeCast S1x8192 (argIds m c) shapeCasts_S8192_S1x8192 := by
    show StableHlo.after hostOps0 (W0 m ρ c) (Proc.devRef .tc main_v1) = _
    after_results
    rfl
  rw [e]
  exact cast_row _ _ q

theorem W1_sq_col (r : Fin 8192) :
    (W1 m ρ c main_v4 : S8192x1.Idx → EReal) (ix2 r (0 : Fin 1)) = (W1 m ρ c main_v3 : S8192.Idx → EReal) (ix1 r) := by
  have e : (W1 m ρ c main_v4 : S8192x1.Idx → EReal) = shapeCast S8192x1 (sqArr m c) shapeCasts_S8192_S8192x1 := by
    show StableHlo.after hostOps0 (W0 m ρ c) (Proc.devRef .tc main_v4) = _
    after_results
    rfl
  rw [e, W1_sq]
  exact cast_col _ _ r

theorem W1_sq_row (q : Fin 8192) :
    (W1 m ρ c main_v5 : S1x8192.Idx → EReal) (ix2 (0 : Fin 1) q) = (W1 m ρ c main_v3 : S8192.Idx → EReal) (ix1 q) := by
  have e : (W1 m ρ c main_v5 : S1x8192.Idx → EReal) = shapeCast S1x8192 (sqArr m c) shapeCasts_S8192_S1x8192 := by
    show StableHlo.after hostOps0 (W0 m ρ c) (Proc.devRef .tc main_v5) = _
    after_results
    rfl
  rw [e, W1_sq]
  exact cast_row _ _ q

end Cert.KernelIdeal.Hand

end
-- ==== Proof.ArraysAsSpec.lean ====
/-
  The three arrays the launch leaves, as the specification's functions of the arguments: the launch finds the
  points as launched, the identifiers as a column and a row of the launched identifiers, and the squared norms as
  a column and a row of the host's sum; put into the tiles' entry-by-entry functions these give the cell function of
  the specification at every pair (r, c).
-/
import proofs.«169215_j6657199309587_2_alg».proof.Proof.TilesToArrays
import proofs.«169215_j6657199309587_2_alg».proof.Proof.HostLines

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-- The tiles' function of the arrays the launch finds is the specification's cell function of the arguments. -/
theorem distOf_spec : distOf (V1 m ρ) c = Cert.Nbr.G_dist (argX m c) (sqArr m c) (argIds m c) := by
  funext j
  unfold distOf pmOf Cert.Nbr.G_dist Cert.Nbr.distAt Cert.Nbr.pmAt Cert.Nbr.pt
  have ex : (V1 m ρ c main_arg0 : S8192x3.Idx → EReal) = argX m c := W1_arg0 m ρ c
  have e4 := W1_sq_col m ρ c (j 0)
  have e5 := W1_sq_row m ρ c (j 1)
  have e0 := W1_ids_col m ρ c (j 0)
  have e1 := W1_ids_row m ρ c (j 1)
  have es : (W1 m ρ c main_v3 : S8192.Idx → EReal) = sqArr m c := W1_sq m ρ c
  rw [es] at e4 e5
  show Cert.Nbr.distOut (fun k => (V1 m ρ c main_arg0 : S8192x3.Idx → EReal) (ix2 (j 0) k)) (fun k => (V1 m ρ c main_arg0 : S8192x3.Idx → EReal) (ix2 (j 1) k))
      ((W1 m ρ c main_v4 : S8192x1.Idx → EReal) (ix2 (j 0) (0 : Fin 1))) ((W1 m ρ c main_v5 : S1x8192.Idx → EReal) (ix2 (0 : Fin 1) (j 1)))
      (Cert.Nbr.pm ((W1 m ρ c main_v0 : S8192x1.Idx → BitVec 32) (ix2 (j 0) (0 : Fin 1))) ((W1 m ρ c main_v1 : S1x8192.Idx → BitVec 32) (ix2 (0 : Fin 1) (j 1)))
        (BitVec.ofNat 32 (j 0).val) (BitVec.ofNat 32 (j 1).val)) = _
  rw [ex, e4, e5, e0, e1]

theorem maskOf_spec (j : S8192x8192.Idx) :
    maskOf (V1 m ρ) c j = (Cert.Nbr.G_mask (argX m c) (sqArr m c) (argIds m c) j).setWidth 32 := by
  unfold maskOf pmOf Cert.Nbr.G_mask Cert.Nbr.maskAt Cert.Nbr.pmAt Cert.Nbr.pt
  have ex : (V1 m ρ c main_arg0 : S8192x3.Idx → EReal) = argX m c := W1_arg0 m ρ c
  have e4 := W1_sq_col m ρ c (j 0)
  have e5 := W1_sq_row m ρ c (j 1)
  have e0 := W1_ids_col m ρ c (j 0)
  have e1 := W1_ids_row m ρ c (j 1)
  have es : (W1 m ρ c main_v3 : S8192.Idx → EReal) = sqArr m c := W1_sq m ρ c
  rw [es] at e4 e5
  show (Cert.Nbr.inc (fun k => (V1 m ρ c main_arg0 : S8192x3.Idx → EReal) (ix2 (j 0) k)) (fun k => (V1 m ρ c main_arg0 : S8192x3.Idx → EReal) (ix2 (j 1) k))
      ((W1 m ρ c main_v4 : S8192x1.Idx → EReal) (ix2 (j 0) (0 : Fin 1))) ((W1 m ρ c main_v5 : S1x8192.Idx → EReal) (ix2 (0 : Fin 1) (j 1)))
      (Cert.Nbr.pm ((W1 m ρ c main_v0 : S8192x1.Idx → BitVec 32) (ix2 (j 0) (0 : Fin 1))) ((W1 m ρ c main_v1 : S1x8192.Idx → BitVec 32) (ix2 (0 : Fin 1) (j 1)))
        (BitVec.ofNat 32 (j 0).val) (BitVec.ofNat 32 (j 1).val))).setWidth 32 = _
  rw [ex, e4, e5, e0, e1]

/-- The distances the launch leaves are the specification's. -/
theorem dist_spec : distArr m ρ c = Cert.Nbr.G_dist (argX m c) (sqArr m c) (argIds m c) :=
  (dist_final (V1 m ρ) c).trans (distOf_spec m ρ c)

/-- The mask words the launch leaves are the specification's bits, widened. -/
theorem mask_spec (j : S8192x8192.Idx) :
    maskArr m ρ c j = (Cert.Nbr.G_mask (argX m c) (sqArr m c) (argIds m c) j).setWidth 32 :=
  (congrFun (mask_final (V1 m ρ) c) j).trans (maskOf_spec m ρ c j)

/-- Plane 0 of the index array the launch leaves holds the row numbers, plane 1 the column numbers. -/
theorem pair_spec0 (r q : Fin 8192) : pairArr m ρ c (ix3 (0 : Fin 2) r q) = BitVec.ofNat 32 r.val :=
  (congrFun (pair_final (V1 m ρ) c) (ix3 (0 : Fin 2) r q)).trans (by unfold pairOf; exact if_pos rfl)
theorem pair_spec1 (r q : Fin 8192) : pairArr m ρ c (ix3 (1 : Fin 2) r q) = BitVec.ofNat 32 q.val :=
  (congrFun (pair_final (V1 m ρ) c) (ix3 (1 : Fin 2) r q)).trans (by unfold pairOf; exact if_neg (fun h : ((1 : Fin 2)).val = 0 => absurd h (by decide)))

end Cert.KernelIdeal.Hand

end
-- ==== Proof.HostTail.lean ====
/-
  The host lines after the launch.

  After the launch the host compares the block of mask words with zero, word by word, and lays the three results
  out flat: the distances, the bits of that comparison, and the pair of index arrays. No line writes an argument,
  and the launch leaves the arguments as it found them.
-/
import proofs.«169215_j6657199309587_2_alg».proof.Proof.HostLines

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-- The flat distances: what the launch left in the square array of distances, laid out flat. -/
theorem W3_dist : (W3 m ρ c main_v11 : S67108864.Idx → EReal)
    = shapeCast S67108864 (distArr m ρ c : S8192x8192.Idx → EReal) shapeCasts_S8192x8192_S67108864 := by
  show StableHlo.after hostOps1 (W2 m ρ c) (Proc.devRef .tc main_v11) = _
  after_results
  exact congrArg (fun v : S8192x8192.Idx → EReal => shapeCast S67108864 v shapeCasts_S8192x8192_S67108864) (W2_dist m ρ c)

/-- The flat pair of index arrays: what the launch left in the two square arrays of numbers, laid out flat. -/
theorem W3_pair : (W3 m ρ c main_v10 : S2x67108864.Idx → BitVec 32)
    = shapeCast S2x67108864 (pairArr m ρ c : S2x8192x8192.Idx → BitVec 32) shapeCasts_S2x8192x8192_S2x67108864 := by
  show StableHlo.after hostOps1 (W2 m ρ c) (Proc.devRef .tc main_v10) = _
  after_results
  exact congrArg (fun v : S2x8192x8192.Idx → BitVec 32 => shapeCast S2x67108864 v shapeCasts_S2x8192x8192_S2x67108864) (W2_pair m ρ c)

/-- The flat mask: the mask words the launch left, compared with zero, laid out flat. -/
theorem W3_mask : (W3 m ρ c main_v12 : S67108864.Idx → BitVec 1)
    = shapeCast S67108864
        (cmpi .ne (maskArr m ρ c : S8192x8192.Idx → BitVec 32)
          (broadcastInDim S8192x8192 ![] bcast_S_S8192x8192 (constantI S_ 32 0#32)))
        shapeCasts_S8192x8192_S67108864 := by
  show StableHlo.after hostOps1 (W2 m ρ c) (Proc.devRef .tc main_v12) = _
  after_results
  exact congrArg (fun v : S8192x8192.Idx → BitVec 32 => shapeCast S67108864
    (cmpi .ne v (broadcastInDim S8192x8192 ![] bcast_S_S8192x8192 (constantI S_ 32 0#32))) shapeCasts_S8192x8192_S67108864)
    (W2_mask m ρ c)

/-- The points end as launched. -/
theorem W3_points : (W3 m ρ c main_arg0 : S8192x3.Idx → EReal) = argX m c := by
  show StableHlo.after hostOps1 (W2 m ρ c) (Proc.devRef .tc main_arg0) = _
  after_results
  exact (W2_of_ne m ρ c main_arg0 (by decide) (by decide) (by decide)).trans (W1_arg0 m ρ c)

/-- The identifiers end as launched. -/
theorem W3_ids : (W3 m ρ c main_arg1 : S8192.Idx → BitVec 32) = argIds m c := by
  show StableHlo.after hostOps1 (W2 m ρ c) (Proc.devRef .tc main_arg1) = _
  after_results
  exact (W2_of_ne m ρ c main_arg1 (by decide) (by decide) (by decide)).trans (W1_arg1 m ρ c)

end Cert.KernelIdeal.Hand

end
-- ==== Proof.RefValue.lean ====
/-
  The reference's three results as the specification's arrays.

  The reference forms the squared norms by a row sum of x * x, the Gram matrix by the product of x with its
  transpose, spreads the norms down the columns and along the rows, and from there on works entry by entry:
  r2 = (|x_r|^2 + |x_c|^2) - 2 * gram, the pair mask from the identifiers and the row and column numbers,
  the distance, the neighbour bit and the distance written out. Read at the entry (r, c) each stage is the
  specification's cell function of point r, point c, their squared norms and identifiers; the squared norms
  stay the reference's own row sum, named sqOf. The three results are then the square arrays laid out flat
  (row-major), and for the pair of index arrays the row and column numbers, each flat, stacked.
-/
import proofs.«169215_j6657199309587_2_alg».proof.Proof.Gen.ReferenceIdeal.Read
import proofs.«169215_j6657199309587_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The squared norms of the points: the sum over the three coordinates of x * x, from zero. -/
def sqOf (x0 : (⟨S8192x3, .f32⟩ : BufTy).Contents (Elt Ideal)) : (⟨S8192, .f32⟩ : BufTy).Contents (Elt Ideal) :=
  Host.reduceAdd (F := Ideal) (mulf x0 x0) (constant (F := Ideal) S_ .f32 0x00000000#32) reducesTo_S8192x3_S8192_d1 h_S_

theorem v1_eq (x0 : (⟨S8192x3, .f32⟩ : BufTy).Contents (Elt Ideal)) : val_main_v1 (F := Ideal) x0 = sqOf x0 := rfl

section Cells
variable (x0 : (⟨S8192x3, .f32⟩ : BufTy).Contents (Elt Ideal)) (x1 : (⟨S8192, .i32⟩ : BufTy).Contents (Elt Ideal))
  (r c : Fin 8192)

/-- The Gram matrix at (r, c): the inner product of points r and c. -/
theorem gram_at : val_main_v3 (F := Ideal) x0 (ix2 r c) = Cert.Nbr.gram (Cert.Nbr.pt x0 r) (Cert.Nbr.pt x0 c) := by
  rw [val_main_v3_apply]
  refine Finset.sum_congr rfl fun k _ => ?_
  rw [val_main_v2_apply]
  have el : lidx_main_v3 (ix2 r c) k = ix2 r k :=
    funext fun a => Fin.ext (by match a with | ⟨0, _⟩ => rfl | ⟨1, _⟩ => rfl)
  have er : idx_main_v2 (ridx_main_v3 (ix2 r c) k) = ix2 c k :=
    funext fun a => Fin.ext (by match a with | ⟨0, _⟩ => rfl | ⟨1, _⟩ => rfl)
  rw [el, er]
  rfl

/-- The squared distance at (r, c). -/
theorem r2_at : val_main_v11 (F := Ideal) x0 (ix2 r c)
    = Cert.Nbr.r2 (Cert.Nbr.pt x0 r) (Cert.Nbr.pt x0 c) (sqOf x0 (ix1 r)) (sqOf x0 (ix1 c)) := by
  rw [val_main_v11_apply, val_main_v8_apply, val_main_v6_apply, val_main_v4_apply, val_main_v7_apply, val_main_v5_apply,
    val_main_v10_apply, val_main_v9_apply, val_main_cst_0_apply, gram_at, v1_eq]
  have e1 : idx_main_v4 (idx_main_v6 (ix2 r c)) = ix1 r :=
    funext fun a => Fin.ext (by match a with | ⟨0, _⟩ => rfl)
  have e2 : idx_main_v5 (idx_main_v7 (ix2 r c)) = ix1 c :=
    funext fun a => Fin.ext (by match a with | ⟨0, _⟩ => rfl)
  rw [e1, e2]
  rfl

/-- The pair mask at (r, c). -/
theorem pm_at : val_main_v23 (F := Ideal) x1 (ix2 r c) = Cert.Nbr.pmAt x1 r c := by
  rw [val_main_v23_apply, val_main_v17_apply, val_main_v15_apply, val_main_v13_apply, val_main_v16_apply, val_main_v14_apply,
    val_main_v22_apply, val_main_v20_apply, val_main_v18_apply, val_main_v12_apply, val_main_v21_apply, val_main_v19_apply,
    val_main_v12_apply]
  have e1 : idx_main_v13 (idx_main_v15 (ix2 r c)) = ix1 r :=
    funext fun a => Fin.ext (by match a with | ⟨0, _⟩ => rfl)
  have e2 : idx_main_v14 (idx_main_v16 (ix2 r c)) = ix1 c :=
    funext fun a => Fin.ext (by match a with | ⟨0, _⟩ => rfl)
  rw [e1, e2]
  rfl

/-- The distance at (r, c). -/
theorem dist_at : val_main_v27 (F := Ideal) x0 x1 (ix2 r c)
    = Cert.Nbr.dist0 (Cert.Nbr.pt x0 r) (Cert.Nbr.pt x0 c) (sqOf x0 (ix1 r)) (sqOf x0 (ix1 c)) (Cert.Nbr.pmAt x1 r c) := by
  rw [val_main_v27_apply, val_main_v26_apply, pm_at, val_main_v25_apply, r2_at, val_main_v24_apply, val_main_cst_1_apply,
    val_main_call0_v1_apply, val_main_call0_v0_apply, val_main_cst_2_apply]
  rfl

/-- The neighbour bit at (r, c). -/
theorem mask_at : val_main_v30 (F := Ideal) x0 x1 (ix2 r c) = Cert.Nbr.maskAt x0 (sqOf x0) x1 r c := by
  rw [val_main_v30_apply, pm_at, val_main_v29_apply, dist_at, val_main_v28_apply, val_main_cst_3_apply]
  rfl

/-- The distance written out at (r, c). -/
theorem distOut_at : val_main_v40 (F := Ideal) x0 x1 (ix2 r c) = Cert.Nbr.distAt x0 (sqOf x0) x1 r c := by
  rw [val_main_v40_apply, mask_at, dist_at, val_main_call1_v1_apply, val_main_call1_v0_apply, val_main_cst_4_apply]
  rfl

/-- The array of row numbers at (r, c). -/
theorem row_at : val_main_v32 (F := Ideal) (ix2 r c) = BitVec.ofNat 32 r.val := by
  rw [val_main_v32_apply, val_main_v31_apply, val_main_v12_apply]

/-- The array of column numbers at (r, c). -/
theorem col_at : val_main_v35 (F := Ideal) (ix2 r c) = BitVec.ofNat 32 c.val := by
  rw [val_main_v35_apply, val_main_v34_apply, val_main_v12_apply]

end Cells

/-! ## The square arrays -/

section Arrays
variable (x0 : (⟨S8192x3, .f32⟩ : BufTy).Contents (Elt Ideal)) (x1 : (⟨S8192, .i32⟩ : BufTy).Contents (Elt Ideal))

theorem v40_eq : val_main_v40 (F := Ideal) x0 x1 = Cert.Nbr.G_dist x0 (sqOf x0) x1 := by
  funext j
  obtain ⟨r, c, rfl⟩ : ∃ (r c : Fin 8192), j = ix2 r c := ⟨j 0, j 1, eq_ix2 j⟩
  exact distOut_at x0 x1 r c

theorem v30_eq : val_main_v30 (F := Ideal) x0 x1 = Cert.Nbr.G_mask x0 (sqOf x0) x1 := by
  funext j
  obtain ⟨r, c, rfl⟩ : ∃ (r c : Fin 8192), j = ix2 r c := ⟨j 0, j 1, eq_ix2 j⟩
  exact mask_at x0 x1 r c

theorem v32_eq : val_main_v32 (F := Ideal) = Cert.Nbr.G_row := by
  funext j
  obtain ⟨r, c, rfl⟩ : ∃ (r c : Fin 8192), j = ix2 r c := ⟨j 0, j 1, eq_ix2 j⟩
  exact row_at r c

theorem v35_eq : val_main_v35 (F := Ideal) = Cert.Nbr.G_col := by
  funext j
  obtain ⟨r, c, rfl⟩ : ∃ (r c : Fin 8192), j = ix2 r c := ⟨j 0, j 1, eq_ix2 j⟩
  exact col_at r c

/-! ## The three results -/

/-- The distances: the square array of distances written out, laid out flat. -/
theorem v41_eq : val_main_v41 (F := Ideal) x0 x1
    = shapeCast S67108864 (Cert.Nbr.G_dist x0 (sqOf x0) x1) shapeCasts_S8192x8192_S67108864 := by
  unfold val_main_v41
  rw [v40_eq]

/-- The mask: the square array of neighbour bits, laid out flat. -/
theorem v42_eq : val_main_v42 (F := Ideal) x0 x1
    = shapeCast S67108864 (Cert.Nbr.G_mask x0 (sqOf x0) x1) shapeCasts_S8192x8192_S67108864 := by
  unfold val_main_v42
  rw [v30_eq]

/-- The pair of index arrays: the row numbers and the column numbers, each laid out flat as one row, stacked. -/
theorem v39_eq : val_main_v39 (F := Ideal)
    = concatenate S2x67108864 0
        [⟨S1x67108864, broadcastInDim S1x67108864 ![1] bcast_S67108864_S1x67108864_1
            (shapeCast S67108864 Cert.Nbr.G_row shapeCasts_S8192x8192_S67108864)⟩,
         ⟨S1x67108864, broadcastInDim S1x67108864 ![1] bcast_S67108864_S1x67108864_1
            (shapeCast S67108864 Cert.Nbr.G_col shapeCasts_S8192x8192_S67108864)⟩]
        concatenates_S1x67108864_S1x67108864_S2x67108864_d0 := by
  unfold val_main_v39 val_main_v37 val_main_v38 val_main_v33 val_main_v36
  rw [v32_eq, v35_eq]

end Arrays

end Cert.ReferenceIdeal.RefValue

end
-- ==== Proof.SpecFlat.lean ====
/-
  A square array of 8192 x 8192 entries laid out flat, row after row: entry n of the flat array is the
  entry (n / 8192, n % 8192) of the square one.
-/
import proofs.«169215_j6657199309587_2_alg».proof.Proof.Spec
import Idealize.ShloMosaic.Lib.Pipeline.Value

noncomputable section

namespace Cert.Nbr

open Idealize.ShloMosaic Idealize.ShloMosaic.ValueIdx

/-- The row of the square array that flat position n lies in. -/
def rowOf (n : Fin 67108864) : Fin 8192 := ⟨n.val / 8192, by have := n.isLt; omega⟩

/-- The column of the square array that flat position n lies in. -/
def colOf (n : Fin 67108864) : Fin 8192 := ⟨n.val % 8192, by omega⟩

/-- The flat layout of a square array reads, at n, the square array at (n / 8192, n % 8192). -/
theorem flat_apply {α : Type} (G : (⟨2, ![8192, 8192]⟩ : Shape).Idx → α)
    (h : (⟨2, ![8192, 8192]⟩ : Shape).ShapeCasts ⟨1, ![67108864]⟩) (n : Fin 67108864) :
    shapeCast ⟨1, ![67108864]⟩ G h (ix1 n) = G (ix2 (rowOf n) (colOf n)) :=
  shapeCast_apply G h (ix1 n) (ix2 (rowOf n) (colOf n)) (by
    rw [Shape.rowMajor_val_two, Shape.rowMajor_val_one]
    show n.val / 8192 * 8192 + n.val % 8192 = n.val
    omega)

end Cert.Nbr

end
-- ==== Proof.RefRead.lean ====
/-
  The reference's three results read at a flat position, and the terms its run states for them.

  Position n of a flat result is the cell (n / 8192, n % 8192) of the square array; the pair of index
  arrays holds at (0, n) that cell's row number and at (1, n) its column number.
-/
import proofs.«169215_j6657199309587_2_alg».proof.Proof.RefValue
import proofs.«169215_j6657199309587_2_alg».proof.Proof.SpecFlat

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

section Flat
variable (x0 : (⟨S8192x3, .f32⟩ : BufTy).Contents (Elt Ideal)) (x1 : (⟨S8192, .i32⟩ : BufTy).Contents (Elt Ideal))
  (n : Fin 67108864)

/-- The flat distances at n. -/
theorem v41_at : val_main_v41 (F := Ideal) x0 x1 (ix1 n)
    = Cert.Nbr.distAt x0 (sqOf x0) x1 (Cert.Nbr.rowOf n) (Cert.Nbr.colOf n) := by
  rw [v41_eq]
  exact Cert.Nbr.flat_apply _ _ n

/-- The flat mask at n. -/
theorem v42_at : val_main_v42 (F := Ideal) x0 x1 (ix1 n)
    = Cert.Nbr.maskAt x0 (sqOf x0) x1 (Cert.Nbr.rowOf n) (Cert.Nbr.colOf n) := by
  rw [v42_eq]
  exact Cert.Nbr.flat_apply _ _ n

/-- The first index array at n: the row number of the cell. -/
theorem v39_at0 : val_main_v39 (F := Ideal) (ix2 (0 : Fin 2) n) = BitVec.ofNat 32 (Cert.Nbr.rowOf n).val := by
  unfold val_main_v39
  refine (concatenate_pair_apply_left (0 : Fin S2x67108864.rank) _ _
    concatenates_S1x67108864_S1x67108864_S2x67108864_d0 (ix2 (0 : Fin 2) n) rfl (ix2 (0 : Fin 1) n)
    (fun b => by match b with | ⟨0, _⟩ => rfl | ⟨1, _⟩ => rfl)).trans ?_
  rw [val_main_v37_apply, val_main_v33_apply, val_main_v32_apply, val_main_v31_apply, val_main_v12_apply]
  rfl

/-- The second index array at n: the column number of the cell. -/
theorem v39_at1 : val_main_v39 (F := Ideal) (ix2 (1 : Fin 2) n) = BitVec.ofNat 32 (Cert.Nbr.colOf n).val := by
  unfold val_main_v39
  refine (concatenate_pair_apply_right (0 : Fin S2x67108864.rank) _ _
    concatenates_S1x67108864_S1x67108864_S2x67108864_d0 (ix2 (1 : Fin 2) n) rfl rfl (ix2 (0 : Fin 1) n)
    (fun b hb => by
      match b with
      | ⟨0, _⟩ => exact absurd rfl hb
      | ⟨1, _⟩ => rfl)
    rfl).trans ?_
  rw [val_main_v38_apply, val_main_v36_apply, val_main_v35_apply, val_main_v34_apply, val_main_v12_apply]
  rfl

end Flat

/-! ## The terms the reference's run states -/

/-- The run's term for the distances. -/
theorem res41 (m : (ℓ : Loc nD τ sig) → Buf (Elt Ideal) ℓ) (c : Dev nD) :
    Cert.ReferenceIdeal.Value.res_main_v41 (F := Ideal) m c
      = shapeCast S67108864 (Cert.Nbr.G_dist (m ((c.tc : Thread nD τ).loc main_arg0))
          (sqOf (m ((c.tc : Thread nD τ).loc main_arg0))) (m ((c.tc : Thread nD τ).loc main_arg1)))
          shapeCasts_S8192x8192_S67108864 :=
  (val_main_v41_eq m c).trans (v41_eq _ _)

end Cert.ReferenceIdeal.RefValue

end
-- ==== Proof.SpecBridge.lean ====
/-
  Two small facts between the kernel's way of writing its results and the specification's.

  A bit widened to a 32-bit word and then compared with the zero word ("is it not zero") is the bit again.
  Two square arrays of 8192 x 8192 entries stacked and laid out flat as two rows of 67108864: entry (u, n) of the
  flat pair is entry (n / 8192, n % 8192) of square array u.
-/
import proofs.«169215_j6657199309587_2_alg».proof.Proof.SpecFlat

noncomputable section

namespace Cert.Nbr

open Idealize.ShloMosaic Idealize.ShloMosaic.ValueIdx

/-- A bit widened to a word is not the zero word exactly when the bit is set. -/
theorem ne_zero_setWidth (b : BitVec 1) : IntOp.cmpi .ne (b.setWidth 32) 0#32 = b := by
  rcases BitVec.eq_zero_or_eq_one b with h | h <;> rw [h] <;> decide

/-- An array of words each of which is a bit widened, compared entry by entry with the zero word spread over the
    square, is the array of bits. -/
theorem mask_word (B : (⟨2, ![8192, 8192]⟩ : Shape).Idx → BitVec 1) (Mk : (⟨2, ![8192, 8192]⟩ : Shape).Idx → BitVec 32)
    (hM : ∀ j, Mk j = (B j).setWidth 32)
    (hb : (⟨0, ![]⟩ : Shape).BroadcastsInDim ⟨2, ![8192, 8192]⟩ (![] : Fin 0 → Fin 2)) :
    cmpi .ne Mk (broadcastInDim ⟨2, ![8192, 8192]⟩ ![] hb (constantI ⟨0, ![]⟩ 32 0#32)) = B := by
  funext j
  show IntOp.cmpi .ne (Mk j) 0#32 = B j
  rw [hM j]
  exact ne_zero_setWidth (B j)

/-- The flat layout of two stacked square arrays reads, at (u, n), square array u at (n / 8192, n % 8192). -/
theorem flat3_apply {α : Type} (P : (⟨3, ![2, 8192, 8192]⟩ : Shape).Idx → α)
    (h : (⟨3, ![2, 8192, 8192]⟩ : Shape).ShapeCasts ⟨2, ![2, 67108864]⟩) (u : Fin 2) (n : Fin 67108864) :
    shapeCast ⟨2, ![2, 67108864]⟩ P h (ix2 u n) = P (ix3 u (rowOf n) (colOf n)) :=
  shapeCast_apply P h (ix2 u n) (ix3 u (rowOf n) (colOf n)) (by
    rw [Shape.rowMajor_val_three, Shape.rowMajor_val_two]
    show (u.val * 8192 + n.val / 8192) * 8192 + n.val % 8192 = u.val * 67108864 + n.val
    have := n.isLt
    omega)

end Cert.Nbr

end
-- ==== Proof.RefPairs.lean ====
/-
  The reference's pair of index arrays against two stacked square arrays of numbers laid out flat: if the first
  square array holds every cell's row number and the second every cell's column number, the flat pair is the
  reference's.
-/
import proofs.«169215_j6657199309587_2_alg».proof.Proof.RefRead
import proofs.«169215_j6657199309587_2_alg».proof.Proof.SpecBridge

noncomputable section

namespace Cert.ReferenceIdeal.RefValue

open Cert.ReferenceIdeal Cert.ReferenceIdeal.Gen Cert.ReferenceIdeal.Read Idealize.ShloMosaic Idealize.ShloMosaic.ValueIdx

/-- Two stacked square arrays, of row numbers and of column numbers, laid out flat are the reference's pair of index
    arrays. -/
theorem pairs_eq (P : (⟨3, ![2, 8192, 8192]⟩ : Shape).Idx → BitVec 32)
    (h : (⟨3, ![2, 8192, 8192]⟩ : Shape).ShapeCasts ⟨2, ![2, 67108864]⟩)
    (h0 : ∀ r c : Fin 8192, P (ix3 (0 : Fin 2) r c) = BitVec.ofNat 32 r.val)
    (h1 : ∀ r c : Fin 8192, P (ix3 (1 : Fin 2) r c) = BitVec.ofNat 32 c.val) :
    shapeCast ⟨2, ![2, 67108864]⟩ P h = val_main_v39 (F := Ideal) := by
  funext j
  obtain ⟨u, n, rfl⟩ : ∃ (u : Fin 2) (n : Fin 67108864), j = ix2 u n := ⟨j 0, j 1, eq_ix2 j⟩
  rw [Cert.Nbr.flat3_apply]
  match u with
  | ⟨0, _⟩ => exact (h0 _ _).trans (v39_at0 n).symm
  | ⟨1, _⟩ => exact (h1 _ _).trans (v39_at1 n).symm

end Cert.ReferenceIdeal.RefValue

end
-- ==== Proof.Agree.lean ====
/-
  The kernel's three results against the reference's, from memories that agree on the arguments.

  The launch leaves in its square array of distances the specification's distances of the launched points and
  identifiers (with the host's squared norms), in its square array of mask words every neighbour bit widened to a
  word, and in its two stacked square arrays every cell's row number and column number. The host lines after the
  launch lay the distances and the stacked numbers out flat and turn each mask word back into its bit. The
  reference's three results are the same flat arrays of the same points and identifiers: the squared norms are
  the same row sum on both sides, so nothing but the agreement of the arguments is used.
-/
import proofs.«169215_j6657199309587_2_alg».proof.Defs
import proofs.«169215_j6657199309587_2_alg».proof.Proof.Gen.Pre_finite_inputs
import proofs.«169215_j6657199309587_2_alg».proof.Proof.HostTail
import proofs.«169215_j6657199309587_2_alg».proof.Proof.RefPairs
import proofs.«169215_j6657199309587_2_alg».proof.Proof.ArraysAsSpec

set_option maxRecDepth 16384

noncomputable section

namespace Cert.Proof.Agree

open Idealize.ShloMosaic Idealize.ShloMosaic.TcCoe Idealize.ShloMosaic.ValueIdx
open Idealize.SL.Sem
open Cert.KernelIdeal Cert.KernelIdeal.Gen Cert.KernelIdeal.Hand

variable (m : (ℓ : Loc nD τ sig) → Buf (Elt Ideal) ℓ) (ρ : Dev nD → PrngReg) (c : Dev nD)
  (x' : (⟨2, ![8192, 3]⟩ : Shape).Idx → EReal) (ids' : (⟨1, ![8192]⟩ : Shape).Idx → BitVec 32)

/-- The reference's flat distances are the kernel's. -/
theorem dists (hx : x' = argX m c) (hi : ids' = argIds m c)
    (hd : (distArr m ρ c : S8192x8192.Idx → EReal) = Cert.Nbr.G_dist (argX m c) (sqArr m c) (argIds m c)) :
    Cert.ReferenceIdeal.Read.val_main_v41 (F := Ideal) x' ids' = (W3 m ρ c main_v11 : S67108864.Idx → EReal) := by
  rw [W3_dist, hd, Cert.ReferenceIdeal.RefValue.v41_eq, hx, hi]
  rfl

/-- The reference's flat mask is the kernel's. -/
theorem masks (hx : x' = argX m c) (hi : ids' = argIds m c)
    (hm : ∀ j, (maskArr m ρ c : S8192x8192.Idx → BitVec 32) j
      = (Cert.Nbr.G_mask (argX m c) (sqArr m c) (argIds m c) j).setWidth 32) :
    Cert.ReferenceIdeal.Read.val_main_v42 (F := Ideal) x' ids' = (W3 m ρ c main_v12 : S67108864.Idx → BitVec 1) := by
  rw [W3_mask, Cert.Nbr.mask_word _ _ hm bcast_S_S8192x8192, Cert.ReferenceIdeal.RefValue.v42_eq, hx, hi]
  rfl

/-- The reference's flat pair of index arrays is the kernel's. -/
theorem pairs
    (h0 : ∀ r q : Fin 8192, (pairArr m ρ c : S2x8192x8192.Idx → BitVec 32) (ix3 (0 : Fin 2) r q) = BitVec.ofNat 32 r.val)
    (h1 : ∀ r q : Fin 8192, (pairArr m ρ c : S2x8192x8192.Idx → BitVec 32) (ix3 (1 : Fin 2) r q) = BitVec.ofNat 32 q.val) :
    Cert.ReferenceIdeal.Read.val_main_v39 (F := Ideal) = (W3 m ρ c main_v10 : S2x67108864.Idx → BitVec 32) := by
  rw [W3_pair]
  exact (Cert.ReferenceIdeal.RefValue.pairs_eq _ shapeCasts_S2x8192x8192_S2x67108864 h0 h1).symm

/-- Both programs run from memories that agree on the arguments, end with equal results, and keep their arguments:
    given what the launch leaves in its three arrays. -/
theorem algebraic_of
    (hd : ∀ (m : (ℓ : Loc nD τ sig) → Buf (Elt Ideal) ℓ) (ρ : Dev nD → PrngReg) (c : Dev nD),
      (distArr m ρ c : S8192x8192.Idx → EReal) = Cert.Nbr.G_dist (argX m c) (sqArr m c) (argIds m c))
    (hm : ∀ (m : (ℓ : Loc nD τ sig) → Buf (Elt Ideal) ℓ) (ρ : Dev nD → PrngReg) (c : Dev nD),
      ∀ j, (maskArr m ρ c : S8192x8192.Idx → BitVec 32) j
        = (Cert.Nbr.G_mask (argX m c) (sqArr m c) (argIds m c) j).setWidth 32)
    (hp0 : ∀ (m : (ℓ : Loc nD τ sig) → Buf (Elt Ideal) ℓ) (ρ : Dev nD → PrngReg) (c : Dev nD),
      ∀ r q : Fin 8192, (pairArr m ρ c : S2x8192x8192.Idx → BitVec 32) (ix3 (0 : Fin 2) r q) = BitVec.ofNat 32 r.val)
    (hp1 : ∀ (m : (ℓ : Loc nD τ sig) → Buf (Elt Ideal) ℓ) (ρ : Dev nD → PrngReg) (c : Dev nD),
      ∀ r q : Fin 8192, (pairArr m ρ c : S2x8192x8192.Idx → BitVec 32) (ix3 (1 : Fin 2) r q) = BitVec.ofNat 32 q.val) :
    Cert.algebraic_KernelIdeal_ReferenceIdeal := by
  intro m ρ m' ρ' _ hagree
  refine ⟨fun c => W3 m ρ c main_v10, fun c => W3 m ρ c main_v11, fun c => W3 m ρ c main_v12, ?_, ?_⟩
  · exact (θ_run Cert.KernelIdeal.defs _ _).mono (fun r h c =>
      ⟨h c _ (mem_uc main_v10 (by decide)), h c _ (mem_uc main_v11 (by decide)), h c _ (mem_uc main_v12 (by decide)),
        (h c _ (mem_uc main_arg0 (by decide))).trans (W3_points m ρ c),
        (h c _ (mem_uc main_arg1 (by decide))).trans (W3_ids m ρ c)⟩)
      (run_all (F := Ideal) m ρ)
  · exact (θ_run Cert.ReferenceIdeal.defs _ _).mono (fun r h c =>
      ⟨(h c).1.trans ((Cert.ReferenceIdeal.Read.val_main_v39_eq (F := Ideal)).trans (pairs m ρ c (hp0 m ρ c) (hp1 m ρ c))),
        (h c).2.1.trans ((Cert.ReferenceIdeal.Read.val_main_v41_eq (F := Ideal) m' c).trans
          (dists m ρ c _ _ (hagree c).1 (hagree c).2 (hd m ρ c))),
        (h c).2.2.1.trans ((Cert.ReferenceIdeal.Read.val_main_v42_eq (F := Ideal) _ _).trans
          (masks m ρ c _ _ (hagree c).1 (hagree c).2 (hm m ρ c))),
        (h c).2.2.2.1, (h c).2.2.2.2⟩)
      (Cert.ReferenceIdeal.Value.run (F := Ideal) m' ρ')

/-- Both programs run from memories that agree on the arguments, end with equal results, and keep their arguments. -/
theorem algebraic : Cert.algebraic_KernelIdeal_ReferenceIdeal :=
  algebraic_of (fun m ρ c => dist_spec m ρ c) (fun m ρ c j => mask_spec m ρ c j)
    (fun m ρ c r q => pair_spec0 m ρ c r q) (fun m ρ c r q => pair_spec1 m ρ c r q)

end Cert.Proof.Agree

end
-- ==== Proof.lean ====
/-
  The neighbour list of 8192 points in 3-space: the pipelined kernel against the plain array program.

  Both programs form, for every pair (r, c) of points, the squared distance from the squared norms and the inner
  product, r2 = (|x_r|² + |x_c|²) − 2·⟨x_r, x_c⟩, decide whether the pair counts (same identifier, r ≠ c), take
  the root of the clamped squared distance of a counting pair and of one otherwise, mark the pair a neighbour when
  it counts and its distance is at most one, and write out the neighbour's distance (zero elsewhere), the neighbour
  bit, and the pair of numbers (r, c). The kernel does so tile by tile over an 8 × 16 grid — tile (a, b) holds rows
  a·1024 … and columns b·512 … — with the inner products by a matrix product of the two coordinate blocks; the array
  program does it on whole 8192 × 8192 arrays with one matrix product against the transposed points. Read on the
  extended reals the two inner products are the same sum over the three coordinates, every other operation is the
  same operation on the same operands in the same order, and the row and column numbers a·1024 + p and b·512 + q are
  the numbers r and c: the results agree entry by entry, with no appeal to finiteness of the inputs.

  The three frames: each kernel program runs through its seven host lines, the launch, and seven more host lines,
  ending with every buffer at the host lines' value of what the launch left (the launch hands its input arrays back
  as found; the two coordinate windows share one array, each holding half of it); the array program's run is its
  host lines composed. No operation of the kernel is rewritten for the ideal reading, so nothing is owed there.
-/
import proofs.«169215_j6657199309587_2_alg».proof.Defs
import proofs.«169215_j6657199309587_2_alg».proof.Proof.ArgsKeptBits
import proofs.«169215_j6657199309587_2_alg».proof.Proof.ArgsKept
import proofs.«169215_j6657199309587_2_alg».proof.Proof.ArraysAsSpec
import proofs.«169215_j6657199309587_2_alg».proof.Proof.Agree
import proofs.«169215_j6657199309587_2_alg».proof.Proof.Gen.ReferenceIdeal.Run
import proofs.«169215_j6657199309587_2_alg».proof.Proof.Gen.Pre_finite_inputs
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2.2.2) (Cert.ReferenceIdeal.Value.run (F := Ideal) m ρ),
  trivial,
  Cert.Proof.Agree.algebraic⟩

end Cert.Proof

end
